-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x21 : Shape := ⟨2, ![8192, 21]⟩
abbrev S8192x5 : Shape := ⟨2, ![8192, 5]⟩
abbrev S_ : Shape := ⟨0, ![]⟩

class Facts : Prop where
  bcast_S_S8192x21 : S_.BroadcastsInDim S8192x21 (![] : Fin 0 → Fin S8192x21.rank)
  reducesTo_S8192x21_S_d0_1 : S8192x21.ReducesTo [0, 1] S_
  h_S_ : 0 < S_.numel
  bcast_S_S8192x5 : S_.BroadcastsInDim S8192x5 (![] : Fin 0 → Fin S8192x5.rank)
  reducesTo_S8192x5_S_d0_1 : S8192x5.ReducesTo [0, 1] S_

variable [Facts]

def fn {F : FTy → Type} [FloatOps F] (main_arg0 : FVec F S8192x21 .f32) (main_arg1 : FVec F S8192x5 .f32) : IVec S_ 1 :=
  let main_v0 : FVec F S8192x21 .f32 := Host.absf main_arg0
  let main_cst : FVec F S_ .f32 := constant S_ .f32 0x7F800000#32
  let main_v1 : FVec F S8192x21 .f32 := broadcastInDim S8192x21 ![] bcast_S_S8192x21 main_cst
  let main_v2 : IVec S8192x21 1 := cmpf .olt main_v0 main_v1
  let main_c : IVec S_ 1 := constantI S_ 1 1#1
  let main_v3 : IVec S_ 1 := (fun x v => Host.reduce IntOp.andi x v reducesTo_S8192x21_S_d0_1 h_S_) main_v2 main_c
  let main_v4 : FVec F S8192x5 .f32 := Host.absf main_arg1
  let main_cst_0 : FVec F S_ .f32 := constant S_ .f32 0x7F800000#32
  let main_v5 : FVec F S8192x5 .f32 := broadcastInDim S8192x5 ![] bcast_S_S8192x5 main_cst_0
  let main_v6 : IVec S8192x5 1 := cmpf .olt main_v4 main_v5
  let main_c_1 : IVec S_ 1 := constantI S_ 1 1#1
  let main_v7 : IVec S_ 1 := (fun x v => Host.reduce IntOp.andi x v reducesTo_S8192x5_S_d0_1 h_S_) main_v6 main_c_1
  let main_v8 : IVec S_ 1 := andi main_v3 main_v7
  main_v8
-- ==== Kernel.lean ====
abbrev S8192x21 : Shape := ⟨2, ![8192, 21]⟩
abbrev S8192x5 : Shape := ⟨2, ![8192, 5]⟩
abbrev S1024x5 : Shape := ⟨2, ![1024, 5]⟩
abbrev S1024x21 : Shape := ⟨2, ![1024, 21]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 3
  | .vmem => 11
  | .smem => 0
  | _ => 0

abbrev bufTy : (tb : Table) → Fin (tcTables nBuf tb) → BufTy
  | .hbm, ⟨0, _⟩ => ⟨S8192x21, .f32⟩
  | .hbm, ⟨1, _⟩ => ⟨S8192x5, .f32⟩
  | .hbm, ⟨2, _⟩ => ⟨S8192x21, .f32⟩
  | .local _ .vmem, ⟨0, _⟩ => ⟨S1024x5, .f32⟩
  | .local _ .vmem, ⟨1, _⟩ => ⟨S1024x5, .f32⟩
  | .local _ .vmem, ⟨2, _⟩ => ⟨S1024x5, .f32⟩
  | .local _ .vmem, ⟨3, _⟩ => ⟨S1024x5, .f32⟩
  | .local _ .vmem, ⟨4, _⟩ => ⟨S1024x21, .f32⟩
  | .local _ .vmem, ⟨5, _⟩ => ⟨S1024x21, .f32⟩
  | .local _ .vmem, ⟨6, _⟩ => ⟨S1024x21, .f32⟩
  | .local _ .vmem, ⟨7, _⟩ => ⟨S1024x21, .f32⟩
  | .local _ .vmem, ⟨8, _⟩ => ⟨S1024x21, .f32⟩
  | .local _ .vmem, ⟨9, _⟩ => ⟨S1024x21, .f32⟩
  | .local _ .vmem, ⟨10, _⟩ => ⟨S1024x21, .f32⟩
  | _, _ => ⟨S8192x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x21 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x21_S1024x21_0_0 : ∀ a, (![0, 0] : Fin 2 → Nat) a + S1024x21.size a ≤ S1024x21.size a
  h_S1024x21 : 0 < S1024x21.numel
  shapeCasts_S1024x21_S1024x21 : S1024x21.ShapeCasts S1024x21
  inb_S1024x5_S1024x5_0_0 : ∀ a, (![0, 0] : Fin 2 → Nat) a + S1024x5.size a ≤ S1024x5.size a
  h_S1024x5 : 0 < S1024x5.numel
  reduces_S1024x5_S1024 : S1024x5.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  dot_S1024x5_S1024x5_S1024x1024_1_1_0_0_n_n_wf : DotDims.WF S1024x5 S1024x5 S1024x1024 [1] [1] [0] [0] [] []
  dot_S1024x1024_S1024x21_S1024x21_1_0_0_1_n_n_wf : DotDims.WF S1024x1024 S1024x21 S1024x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5.size a ≤ S8192x5.size a
  hwx0_0 : ∀ i : grid0.Coords, EltTy.bits .f32 = 32 ∨ (Rect.block (s := S8192x5) S1024x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x5.size a ≤ S8192x5.size a
  hwx0_1 : ∀ i : grid0.Coords, EltTy.bits .f32 = 32 ∨ (Rect.block (s := S8192x5) S1024x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x21.size a ≤ S8192x21.size a
  hwx0_2 : ∀ i : grid0.Coords, EltTy.bits .f32 = 32 ∨ (Rect.block (s := S8192x21) S1024x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x21.size a ≤ S8192x21.size a
  hwx0_3 : ∀ i : grid0.Coords, EltTy.bits .f32 = 32 ∨ (Rect.block (s := S8192x21) S1024x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x21.size a ≤ S8192x21.size a
  hwx0_4 : ∀ i : grid0.Coords, EltTy.bits .f32 = 32 ∨ (Rect.block (s := S8192x21) S1024x21.size (cc0_transform_4 i) (hinb0_4 i)).WholeWords (EltTy.packing .f32)

variable [Facts₀]

def dot_S1024x5_S1024x5_S1024x1024_1_1_0_0_n_n : DotDims S1024x5 S1024x5 S1024x1024 where
  lhsContracting := [1]
  rhsContracting := [1]
  lhsNonContracting := [0]
  rhsNonContracting := [0]
  lhsBatch := []
  rhsBatch := []
  wf := dot_S1024x5_S1024x5_S1024x1024_1_1_0_0_n_n_wf
def dot_S1024x1024_S1024x21_S1024x21_1_0_0_1_n_n : DotDims S1024x1024 S1024x21 S1024x21 where
  lhsContracting := [1]
  rhsContracting := [0]
  lhsNonContracting := [0]
  rhsNonContracting := [1]
  lhsBatch := []
  rhsBatch := []
  wf := dot_S1024x1024_S1024x21_S1024x21_1_0_0_1_n_n_wf

abbrev win0_0 : Pipeline.Window sig grid0 :=
  Pipeline.Window.ofSpec (Memref.whole main_arg1) S1024x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x21.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x21.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x21 : Shape := ⟨2, ![8192, 21]⟩
abbrev S8192x5 : Shape := ⟨2, ![8192, 5]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S5x8192 : Shape := ⟨2, ![5, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x21, .f32⟩
  | .hbm, ⟨1, _⟩ => ⟨S8192x5, .f32⟩
  | .hbm, ⟨2, _⟩ => ⟨S8192x5, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S5x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x21, .f32⟩
  | .hbm, ⟨24, _⟩ => ⟨S8192x21, .f32⟩
  | _, _ => ⟨S8192x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S8192x5_S8192_d1 : S8192x5.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x5_S5x8192_1_0 : S8192x5.Transposes [1, 0] S5x8192
  bcast_S_S8192x8192 : S_.BroadcastsInDim S8192x8192 (![] : Fin 0 → Fin S8192x8192.rank)
  dot_S8192x5_S5x8192_S8192x8192_1_0_0_1_n_n_wf : DotDims.WF S8192x5 S5x8192 S8192x8192 [1] [0] [0] [1] [] []
  dot_S8192x8192_S8192x21_S8192x21_1_0_0_1_n_n_wf : DotDims.WF S8192x8192 S8192x21 S8192x21 [1] [0] [0] [1] [] []

variable [Facts₀]

def dot_S8192x5_S5x8192_S8192x8192_1_0_0_1_n_n : DotDims S8192x5 S5x8192 S8192x8192 where
  lhsContracting := [1]
  rhsContracting := [0]
  lhsNonContracting := [0]
  rhsNonContracting := [1]
  lhsBatch := []
  rhsBatch := []
  wf := dot_S8192x5_S5x8192_S8192x8192_1_0_0_1_n_n_wf
def dot_S8192x8192_S8192x21_S8192x21_1_0_0_1_n_n : DotDims S8192x8192 S8192x21 S8192x21 where
  lhsContracting := [1]
  rhsContracting := [0]
  lhsNonContracting := [0]
  rhsNonContracting := [1]
  lhsBatch := []
  rhsBatch := []
  wf := dot_S8192x8192_S8192x21_S8192x21_1_0_0_1_n_n_wf

class Facts : Prop extends Facts₀ where

variable [Facts]
-- ==== Proof.KbSetup.lean ====
/-
  What the frame of this program is stated over. The grid has 8 × 8 points `(i, j)`, `j` the fast axis, point `t`
  being `(t / 8, t % 8)`. Window 0 stages block `i` of the feature array and window 1 block `j` of it; window 2
  stages block `j` of the channel array and window 3 block `i` of it; window 4 is block `i` of the result. The body
  zeroes its scratch accumulator where `j = 0`, adds one block product to it at every point, and where `j = 7`
  stores the accumulator less window 3's block into window 4; elsewhere window 4 is idle and is not written back.
  Here: the arrays as the region finds them, each window's block at a point, that an input's staging buffer holds its
  block at every point, the two branch conditions in closed form over the grid, where window 4 is idle, and the
  region's invariant before the first point.
-/
import proofs.«163721_j62723702391546_1_alg».proof.Proof.Gen.Kernel.Launch
import proofs.«163721_j62723702391546_1_alg».proof.Proof.Gen.Kernel.Skeleton
import proofs.«163721_j62723702391546_1_alg».proof.Proof.Gen.Kernel.Points
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers as the region finds them: @main is the region alone, so they are the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the entry contents and whose body leaves the block
    in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The first branch is taken where the fast coordinate is 0: there the accumulator is zeroed. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 8 = 0 :=
  (by decide +kernel : ∀ t : Fin grid0.N, condFirst (grid0.coords t) ↔ t.val % 8 = 0)

/-- The second branch is taken where the fast coordinate is 7: there the result block is stored. -/
abbrev condLast (i : grid0.Coords) : Prop := k0_cond2 i = 1#1
theorem condLast_iff : ∀ t : Fin cfg0.N, condLast (grid0.coords t) ↔ t.val % 8 = 7 :=
  (by decide +kernel : ∀ t : Fin grid0.N, condLast (grid0.coords t) ↔ t.val % 8 = 7)

/-! ## Where window 4 is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- Where the result block is not stored the configuration calls window 4 idle, and the pipeline does not write it back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The memrefs the body is called with -/

abbrev ms0 (t : Fin cfg0.N) : Memref sig .tc .vmem S1024x5 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x21 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x21 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x21 .f32 := win0_4.stage (cfg0.slots t 4)
abbrev hs4 (t : Fin cfg0.N) : (ms4 t).IsWhole := hstage0_4 ((cfg0.slots t 4).cast nbuf0_4)
/-- The scratch accumulator, a whole scoped buffer of the kernel's own, and the view its contents are stated through. -/
abbrev scM : Memref sig .tc .vmem S1024x21 .f32 := Memref.whole cc0_scratch0
abbrev VS : View sig .tc .vmem S1024x21 .f32 := scM.view
/-- One staging buffer of window 4, through which what a point leaves in it is stated. -/
abbrev VO : View sig .tc .vmem S1024x21 .f32 := (Memref.whole cc0_stg4_0 : Memref sig .tc .vmem S1024x21 .f32).view

/-- What the launch hands the body besides the staging buffers: the scratch accumulator at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Fr

end
-- ==== Proof.KbRuns.lean ====
/-
  The body run once per control case, on any whole staging memrefs. Three cases meet the grid: the fast coordinate 0
  (the accumulator is zeroed, then added to; nothing is stored into window 4), strictly between 0 and 7 (added to only),
  and 7 (added to, then the result block stored into window 4). In each the inputs' buffers are handed back as found;
  an idle window 4 is handed back untouched; the scratch ends with the pieces the stores wrote, which the run finds.
-/
import proofs.«163721_j62723702391546_1_alg».proof.Proof.KbSetup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The fast coordinate is 0 and not 7. The scratch is taken at anything and ends with two stores' pieces (the zero
    block, then the zero block read back plus this point's product). -/
noncomputable def runFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i)
    (x0 x1 : Vec F S1024x5 .f32) (x2 x3 : Vec F S1024x21 .f32) :
    Σ' (L4 : List (View.Piece (Elt F) S1024x21 .f32)), { LS : List (View.Piece (Elt F) S1024x21 .f32) //
      ∀ (xi4 : Vec F S1024x21 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__lattice_kernel i arg2 harg2 arg3 harg3 arg4 harg4 arg5 harg5 arg6 harg6 arg7 harg7) K } := by
  refine ⟨[], ?_, fun xi4 E K => ?run⟩
  case run =>
    simp only [cc0__lattice_kernel_eq_skeleton]; unfold cc0__lattice_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- The fast coordinate is neither 0 nor 7. The scratch is taken at what the point before left, `xs`, and ends with one
    store's piece (`xs` plus this point's product). -/
noncomputable def runMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i)
    (x0 x1 : Vec F S1024x5 .f32) (x2 x3 : Vec F S1024x21 .f32) (xs : Vec F S1024x21 .f32) :
    Σ' (L4 : List (View.Piece (Elt F) S1024x21 .f32)), { LS : List (View.Piece (Elt F) S1024x21 .f32) //
      ∀ (xi4 : Vec F S1024x21 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__lattice_kernel i arg2 harg2 arg3 harg3 arg4 harg4 arg5 harg5 arg6 harg6 arg7 harg7) K } := by
  refine ⟨[], ?_, fun xi4 E K => ?run⟩
  case run =>
    simp only [cc0__lattice_kernel_eq_skeleton]; unfold cc0__lattice_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- The fast coordinate is 7 and not 0. The scratch is taken at `xs` and ends with one store's piece; window 4 is
    taken at anything and ends with one store's piece (the accumulator less window 3's block). -/
noncomputable def runLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i)
    (x0 x1 : Vec F S1024x5 .f32) (x2 x3 : Vec F S1024x21 .f32) (xs : Vec F S1024x21 .f32) :
    Σ' (L4 : List (View.Piece (Elt F) S1024x21 .f32)), { LS : List (View.Piece (Elt F) S1024x21 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__lattice_kernel i arg2 harg2 arg3 harg3 arg4 harg4 arg5 harg5 arg6 harg6 arg7 harg7) K } := by
  refine ⟨?_, ?_, fun E K => ?run⟩
  case run =>
    simp only [cc0__lattice_kernel_eq_skeleton]; unfold cc0__lattice_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Fr

end
-- ==== Proof.KbFrame.lean ====
/-
  What the scratch accumulator and window 4 hold after each point, the pipeline's proof data, and the body obligation.
  After a point with fast coordinate 0 the accumulator holds what the first case's two stores leave; after any other
  point what that case's one store leaves over what the point before left: a recursion on the point. Window 4 holds, after
  a point with fast coordinate 7, what the last case's store leaves; at the other points it is idle. The two arrays that
  two input windows share are each held at the two halves of the full share, one half per window.
-/
import proofs.«163721_j62723702391546_1_alg».proof.Proof.KbRuns
import Idealize.ShloMosaic.Lib.Ring

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's two pieces cover the scratch. -/
theorem coverFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i) (x0 x1 : Vec F S1024x5 .f32) (x2 x3 : Vec F S1024x21 .f32) (y : S1024x21.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S1024x21.size (by sl_kernel_rfl) y
/-- What the first case leaves in the scratch: its pieces read back. -/
def accFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i) (x0 x1 : Vec F S1024x5 .f32) (x2 x3 : Vec F S1024x21 .f32) : Vec F S1024x21 .f32 :=
  VS.read (Elt F) (VS.writes (Elt F) VS.junk (runFirst c i arg2 harg2 arg3 harg3 arg4 harg4 arg5 harg5 arg6 harg6 arg7 harg7 hc0 hc1 x0 x1 x2 x3).2.1)

theorem coverMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i) (x0 x1 : Vec F S1024x5 .f32) (x2 x3 : Vec F S1024x21 .f32) (xs : Vec F S1024x21 .f32) (y : S1024x21.Idx) :
    ∃ pc ∈ (runMid c i arg2 harg2 arg3 harg3 arg4 harg4 arg5 harg5 arg6 harg6 arg7 harg7 hc0 hc1 x0 x1 x2 x3 xs).2.1, y ∈ pc.1.set :=
  View.cover_of_tiledL (runMid c i arg2 harg2 arg3 harg3 arg4 harg4 arg5 harg5 arg6 harg6 arg7 harg7 hc0 hc1 x0 x1 x2 x3 xs).2.1 S1024x21.size (by sl_kernel_rfl) y
def accMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i) (x0 x1 : Vec F S1024x5 .f32) (x2 x3 : Vec F S1024x21 .f32) (xs : Vec F S1024x21 .f32) : Vec F S1024x21 .f32 :=
  VS.read (Elt F) (VS.writes (Elt F) VS.junk (runMid c i arg2 harg2 arg3 harg3 arg4 harg4 arg5 harg5 arg6 harg6 arg7 harg7 hc0 hc1 x0 x1 x2 x3 xs).2.1)

theorem coverLastS (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) (y : S1024x21.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S1024x21.size (by sl_kernel_rfl) y
def accLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) : Vec F S1024x21 .f32 :=
  VS.read (Elt F) (VS.writes (Elt F) VS.junk (runLast c i arg2 harg2 arg3 harg3 arg4 harg4 arg5 harg5 arg6 harg6 arg7 harg7 hc0 hc1 x0 x1 x2 x3 xs).2.1)
/-- The last case's piece covers window 4's block. -/
theorem coverLast4 (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) (y : S1024x21.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S1024x21.size (by sl_kernel_rfl) y
/-- What the last case leaves in window 4's staging buffer. -/
def outLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) : Vec F S1024x21 .f32 :=
  VO.read (Elt F) (VO.writes (Elt F) VO.junk (runLast c i arg2 harg2 arg3 harg3 arg4 harg4 arg5 harg5 arg6 harg6 arg7 harg7 hc0 hc1 x0 x1 x2 x3 xs).1)

/-! ## The accumulator after each point -/

theorem N64 : cfg0.N = 64 := N_0

/-- What the scratch holds after the body at position `n`: by the case the closed forms select there, the later cases
    over what position `n - 1` left. -/
def accAt (c : Dev nD) : (n : ℕ) → n < cfg0.N → Vec F S1024x21 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = 7 then False.elim (by omega)
      else accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = 7 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h0 : t.val % 8 = 0) (h1 : ¬t.val % 8 = 7) :
    accAt m c t.val t.isLt = accFirst c (grid0.coords t) (ms0 t) (hs0 t) (ms1 t) (hs1 t) (ms2 t) (hs2 t) (ms3 t) (hs3 t) (ms4 t) (hs4 t) scM (Memref.isWhole_whole _) ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) (ms4 t) (hs4 t) scM (Memref.isWhole_whole _) (fun h => h0 ((condFirst_iff t).mp h)) (fun h => h1 ((condLast_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) (ms4 t) (hs4 t) scM (Memref.isWhole_whole _) (fun h => h0 ((condFirst_iff t).mp h)) ((condLast_iff t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What window 4's staging buffer holds after the body at point `t`: where the fast coordinate is 7, what the last case
    leaves over the accumulator of the point before; elsewhere the window is idle and nothing consults this. -/
def out4At (c : Dev nD) (t : Fin cfg0.N) : Vec F S1024x21 .f32 :=
  if h1 : t.val % 8 = 7 then
    outLast c (grid0.coords t) (ms0 t) (hs0 t) (ms1 t) (hs1 t) (ms2 t) (hs2 t) (ms3 t) (hs3 t) (ms4 t) (hs4 t) scM (Memref.isWhole_whole _) (fun h => (fun h => by omega) ((condFirst_iff t).mp h)) ((condLast_iff t).mpr h1) (iblk m c 0 t) (iblk m c 1 t) (iblk m c 2 t) (iblk m c 3 t) (accAt m c (t.val - 1) (Nat.lt_of_le_of_lt (Nat.sub_le _ _) t.isLt))
  else VO.read (Elt F) VO.junk

theorem out4At_last (c : Dev nD) (t : Fin cfg0.N) (h0 : ¬t.val % 8 = 0) (h1 : t.val % 8 = 7) :
    out4At m c t = outLast c (grid0.coords t) (ms0 t) (hs0 t) (ms1 t) (hs1 t) (ms2 t) (hs2 t) (ms3 t) (hs3 t) (ms4 t) (hs4 t) scM (Memref.isWhole_whole _) (fun h => h0 ((condFirst_iff t).mp h)) ((condLast_iff t).mpr h1) (iblk m c 0 t) (iblk m c 1 t) (iblk m c 2 t) (iblk m c 3 t) (accAt m c (t.val - 1) (Nat.lt_of_le_of_lt (Nat.sub_le _ _) t.isLt)) := by
  unfold out4At; rw [dif_pos h1]

/-! ## The region's invariant, point by point -/

/-- Before the first point the scratch holds anything; before a later one, what the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and window 4's at `out4At`;
    the invariant `PhiS`; nothing owed; of each array two input windows share, the left half of the full share to the
    lower window and the right half to the upper. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4At m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4At m c t := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]
theorem leaves_in3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' buffers hold their blocks; the closed forms say which case the point is in; the
    invariant hands the body the scratch at what the point before left (at anything at the first point) and takes it
    back at this point's contents; window 4 is handed back untouched where idle and at the last case's contents where not. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt N64
  by_cases h0 : t.val % 8 = 0
  · have h1 : ¬t.val % 8 = 7 := by omega
    rw [Dat.leavesExact_idle (dats m 0 c) 4 t (idle4 t (fun h => h1 ((condLast_iff t).mp h))) (noFlush4 t (fun h => h1 ((condLast_iff t).mp h)))]
    rw [accAt_first m c t h0 h1]
    unfold accFirst; (try dsimp only)
    have hpre : (dats m 0 c).Φ t.castSucc ⊢ (iprop(∃ d, owns (c : Thread nD τ) scM fullShare d) : sProp 𝕄) := by
      rw [PhiS_castSucc m c t]
      by_cases hz : t.val = 0
      · rw [PhiS_zero m c _ _ hz, scopedRest_scratch]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS := hpre $$ HS
    iapply ((runFirst c (grid0.coords t) _ _ _ _ _ _ _ _ _ _ _ _ ((condFirst_iff t).mpr h0) (fun h => h1 ((condLast_iff t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact View.read_writes_of_cover _ _ _ _ _ (coverFirst c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hz : t.val ≠ 0 := fun hz => h0 (by rw [hz])
    by_cases h1 : t.val % 8 = 7
    · rw [show (dats m 0 c).leavesExact 4 t = owns (c : Thread nD τ) (ms4 t) fullShare ((dats m 0 c).after 4 t) from by
        unfold Dat.leavesExact; rw [live4 t ((condLast_iff t).mpr h1)], after4]
      rw [out4At_last m c t h0 h1, accAt_last m c t h0 h1]
      unfold outLast accLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((condFirst_iff t).mp h)) ((condLast_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (coverLastS c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast4 c _ _ _ _ _ _ _ _ _ _ _ _ _ _ _ _ _ _ _ _)
    · rw [Dat.leavesExact_idle (dats m 0 c) 4 t (idle4 t (fun h => h1 ((condLast_iff t).mp h))) (noFlush4 t (fun h => h1 ((condLast_iff t).mp h)))]
      rw [accAt_mid m c t h0 h1]
      unfold accMid; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((condFirst_iff t).mp h)) (fun h => h1 ((condLast_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (coverMid c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives the scratch back at some contents. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have := N64; omega), scopedRest_scratch]
  iintro H; iexists _; iexact H

end Cert.Kernel.Fr

end
-- ==== Proof.KbLaunch.lean ====
/-
  The launch. @main is the region alone. The feature array is handed to windows 0 and 1 and the channel array to
  windows 2 and 3: each of the two buffers, held whole at the full share on entry, is split into its two halves, one per
  window, which is all an input window's fetches need; the result array goes to window 4 whole. The run then ends with
  every window's array at what the proof data compute: an input's unchanged, the result's overwritten by the blocks
  written back. The frame claim reads the two argument arrays off that.
-/
import proofs.«163721_j62723702391546_1_alg».proof.Proof.KbFrame
import Idealize.ShloMosaic.Lib.Pipeline.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, whole at the full share, make the proof data's arrays at entry: the two
    shared ones split into halves. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg1, main_arg0, main_v0] (by decide) (by decide), bigSep_W0]
  have e0 : ((cfg0.win 0).arr.view.loc (c : Thread nD τ) ↦[(cfg0.win 0).arr.view.set]{(dats m 0 c).share 0} (dats m 0 c).arrAt 0 0 : sProp 𝕄)
      = ((c : Thread nD τ).loc main_arg1 ↦{fullShare.left} V m c main_arg1) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = ((c : Thread nD τ).loc main_arg1 ↦{fullShare.right} V m c main_arg1) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = ((c : Thread nD τ).loc main_arg0 ↦{fullShare.left} V m c main_arg0) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = ((c : Thread nD τ).loc main_arg0 ↦{fullShare.right} V m c main_arg0) := by
    rw [(arr_whole0 3).set_eq_univ]; rfl
  have e4 : ((cfg0.win 4).arr.view.loc (c : Thread nD τ) ↦[(cfg0.win 4).arr.view.set]{(dats m 0 c).share 4} (dats m 0 c).arrAt 4 0 : sProp 𝕄)
      = ((c : Thread nD τ).loc main_v0 ↦{fullShare} V m c main_v0) := by
    rw [(arr_whole0 4).set_eq_univ]; rfl
  rw [e0, e1, e2, e3, e4]
  show (iprop(((c : Thread nD τ).loc main_arg1 ↦{fullShare} V m c main_arg1) ∗ ((c : Thread nD τ).loc main_arg0 ↦{fullShare} V m c main_arg0) ∗ ((c : Thread nD τ).loc main_v0 ↦{fullShare} V m c main_v0)) : sProp 𝕄) ⊢ _
  iintro ⟨H1, H0, Hv⟩
  ihave ⟨H1l, H1r⟩ := (pointsTo_share (PosShare.mem_left_op_right fullShare)).1 $$ H1
  ihave ⟨H0l, H0r⟩ := (pointsTo_share (PosShare.mem_left_op_right fullShare)).1 $$ H0
  isplitl [H1l]; · iexact H1l
  isplitl [H1r]; · iexact H1r
  isplitl [H0l]; · iexact H0l
  isplitl [H0r]; · iexact H0r
  iexact Hv

/-- Every weakly fair execution of @main terminates, faulting nowhere, with each window's array at what the proof data
    compute from the blocks written back. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun c => rfl))
    (hsplit := hsplit m)
    (X := fun _ => iprop(emp)) (Y := fun _ => iprop(emp)) (Z := fun c => Pipeline.unscopedRest spec0 c (V m c))
    (hX := fun c => by iintro H; isplitr; · iempintro
                       iexact H)
    (hin := fun c => by iintro ⟨-, H⟩; iapply (hin m c); iexact H)
    (hout := fun c => by iintro H; isplitr; · iempintro
                         iapply (hout m c); iexact H)
    (QY := fun _ _ => True)
    (hY := fun c s' => by iintro ⟨-, -, HSI⟩; imodintro; isplitr; · ipureintro; trivial
                          iexact HSI)
    (hQ := fun s h c => (h c).1)

/-- The frame: both argument arrays end as they began (each is an input window's array, which nothing writes). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 2).trans (((dats m 0 c).arrAt_in 2 rfl _).trans (A_eq m c 2)),
     ((h c) 0).trans (((dats m 0 c).arrAt_in 0 rfl _).trans (A_eq m c 0))⟩) (run_main m ρ)

end Cert.Kernel.Fr

end
-- ==== Proof.KiSetup.lean ====
/-
  What the frame of this program is stated over. The grid has 8 × 8 points `(i, j)`, `j` the fast axis, point `t`
  being `(t / 8, t % 8)`. Window 0 stages block `i` of the feature array and window 1 block `j` of it; window 2
  stages block `j` of the channel array and window 3 block `i` of it; window 4 is block `i` of the result. The body
  zeroes its scratch accumulator where `j = 0`, adds one block product to it at every point, and where `j = 7`
  stores the accumulator less window 3's block into window 4; elsewhere window 4 is idle and is not written back.
  Here: the arrays as the region finds them, each window's block at a point, that an input's staging buffer holds its
  block at every point, the two branch conditions in closed form over the grid, where window 4 is idle, and the
  region's invariant before the first point.
-/
import proofs.«163721_j62723702391546_1_alg».proof.Proof.Gen.KernelIdeal.Launch
import proofs.«163721_j62723702391546_1_alg».proof.Proof.Gen.KernelIdeal.Skeleton
import proofs.«163721_j62723702391546_1_alg».proof.Proof.Gen.KernelIdeal.Points
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers as the region finds them: @main is the region alone, so they are the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the entry contents and whose body leaves the block
    in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The first branch is taken where the fast coordinate is 0: there the accumulator is zeroed. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 8 = 0 :=
  (by decide +kernel : ∀ t : Fin grid0.N, condFirst (grid0.coords t) ↔ t.val % 8 = 0)

/-- The second branch is taken where the fast coordinate is 7: there the result block is stored. -/
abbrev condLast (i : grid0.Coords) : Prop := k0_cond2 i = 1#1
theorem condLast_iff : ∀ t : Fin cfg0.N, condLast (grid0.coords t) ↔ t.val % 8 = 7 :=
  (by decide +kernel : ∀ t : Fin grid0.N, condLast (grid0.coords t) ↔ t.val % 8 = 7)

/-! ## Where window 4 is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- Where the result block is not stored the configuration calls window 4 idle, and the pipeline does not write it back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The memrefs the body is called with -/

abbrev ms0 (t : Fin cfg0.N) : Memref sig .tc .vmem S1024x5 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x21 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x21 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x21 .f32 := win0_4.stage (cfg0.slots t 4)
abbrev hs4 (t : Fin cfg0.N) : (ms4 t).IsWhole := hstage0_4 ((cfg0.slots t 4).cast nbuf0_4)
/-- The scratch accumulator, a whole scoped buffer of the kernel's own, and the view its contents are stated through. -/
abbrev scM : Memref sig .tc .vmem S1024x21 .f32 := Memref.whole cc0_scratch0
abbrev VS : View sig .tc .vmem S1024x21 .f32 := scM.view
/-- One staging buffer of window 4, through which what a point leaves in it is stated. -/
abbrev VO : View sig .tc .vmem S1024x21 .f32 := (Memref.whole cc0_stg4_0 : Memref sig .tc .vmem S1024x21 .f32).view

/-- What the launch hands the body besides the staging buffers: the scratch accumulator at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Fr

end
-- ==== Proof.KiRuns.lean ====
/-
  The body run once per control case, on any whole staging memrefs. Three cases meet the grid: the fast coordinate 0
  (the accumulator is zeroed, then added to; nothing is stored into window 4), strictly between 0 and 7 (added to only),
  and 7 (added to, then the result block stored into window 4). In each the inputs' buffers are handed back as found;
  an idle window 4 is handed back untouched; the scratch ends with the pieces the stores wrote, which the run finds.
-/
import proofs.«163721_j62723702391546_1_alg».proof.Proof.KiSetup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The fast coordinate is 0 and not 7. The scratch is taken at anything and ends with two stores' pieces (the zero
    block, then the zero block read back plus this point's product). -/
noncomputable def runFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i)
    (x0 x1 : Vec F S1024x5 .f32) (x2 x3 : Vec F S1024x21 .f32) :
    Σ' (L4 : List (View.Piece (Elt F) S1024x21 .f32)), { LS : List (View.Piece (Elt F) S1024x21 .f32) //
      ∀ (xi4 : Vec F S1024x21 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__lattice_kernel i arg2 harg2 arg3 harg3 arg4 harg4 arg5 harg5 arg6 harg6 arg7 harg7) K } := by
  refine ⟨[], ?_, fun xi4 E K => ?run⟩
  case run =>
    simp only [cc0__lattice_kernel_eq_skeleton]; unfold cc0__lattice_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- The fast coordinate is neither 0 nor 7. The scratch is taken at what the point before left, `xs`, and ends with one
    store's piece (`xs` plus this point's product). -/
noncomputable def runMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i)
    (x0 x1 : Vec F S1024x5 .f32) (x2 x3 : Vec F S1024x21 .f32) (xs : Vec F S1024x21 .f32) :
    Σ' (L4 : List (View.Piece (Elt F) S1024x21 .f32)), { LS : List (View.Piece (Elt F) S1024x21 .f32) //
      ∀ (xi4 : Vec F S1024x21 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__lattice_kernel i arg2 harg2 arg3 harg3 arg4 harg4 arg5 harg5 arg6 harg6 arg7 harg7) K } := by
  refine ⟨[], ?_, fun xi4 E K => ?run⟩
  case run =>
    simp only [cc0__lattice_kernel_eq_skeleton]; unfold cc0__lattice_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- The fast coordinate is 7 and not 0. The scratch is taken at `xs` and ends with one store's piece; window 4 is
    taken at anything and ends with one store's piece (the accumulator less window 3's block). -/
noncomputable def runLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i)
    (x0 x1 : Vec F S1024x5 .f32) (x2 x3 : Vec F S1024x21 .f32) (xs : Vec F S1024x21 .f32) :
    Σ' (L4 : List (View.Piece (Elt F) S1024x21 .f32)), { LS : List (View.Piece (Elt F) S1024x21 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__lattice_kernel i arg2 harg2 arg3 harg3 arg4 harg4 arg5 harg5 arg6 harg6 arg7 harg7) K } := by
  refine ⟨?_, ?_, fun E K => ?run⟩
  case run =>
    simp only [cc0__lattice_kernel_eq_skeleton]; unfold cc0__lattice_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Fr

end
-- ==== Proof.KiFrame.lean ====
/-
  What the scratch accumulator and window 4 hold after each point, the pipeline's proof data, and the body obligation.
  After a point with fast coordinate 0 the accumulator holds what the first case's two stores leave; after any other
  point what that case's one store leaves over what the point before left: a recursion on the point. Window 4 holds, after
  a point with fast coordinate 7, what the last case's store leaves; at the other points it is idle. The two arrays that
  two input windows share are each held at the two halves of the full share, one half per window.
-/
import proofs.«163721_j62723702391546_1_alg».proof.Proof.KiRuns
import Idealize.ShloMosaic.Lib.Ring

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's two pieces cover the scratch. -/
theorem coverFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i) (x0 x1 : Vec F S1024x5 .f32) (x2 x3 : Vec F S1024x21 .f32) (y : S1024x21.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S1024x21.size (by sl_kernel_rfl) y
/-- What the first case leaves in the scratch: its pieces read back. -/
def accFirst (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i) (x0 x1 : Vec F S1024x5 .f32) (x2 x3 : Vec F S1024x21 .f32) : Vec F S1024x21 .f32 :=
  VS.read (Elt F) (VS.writes (Elt F) VS.junk (runFirst c i arg2 harg2 arg3 harg3 arg4 harg4 arg5 harg5 arg6 harg6 arg7 harg7 hc0 hc1 x0 x1 x2 x3).2.1)

theorem coverMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i) (x0 x1 : Vec F S1024x5 .f32) (x2 x3 : Vec F S1024x21 .f32) (xs : Vec F S1024x21 .f32) (y : S1024x21.Idx) :
    ∃ pc ∈ (runMid c i arg2 harg2 arg3 harg3 arg4 harg4 arg5 harg5 arg6 harg6 arg7 harg7 hc0 hc1 x0 x1 x2 x3 xs).2.1, y ∈ pc.1.set :=
  View.cover_of_tiledL (runMid c i arg2 harg2 arg3 harg3 arg4 harg4 arg5 harg5 arg6 harg6 arg7 harg7 hc0 hc1 x0 x1 x2 x3 xs).2.1 S1024x21.size (by sl_kernel_rfl) y
def accMid (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i) (x0 x1 : Vec F S1024x5 .f32) (x2 x3 : Vec F S1024x21 .f32) (xs : Vec F S1024x21 .f32) : Vec F S1024x21 .f32 :=
  VS.read (Elt F) (VS.writes (Elt F) VS.junk (runMid c i arg2 harg2 arg3 harg3 arg4 harg4 arg5 harg5 arg6 harg6 arg7 harg7 hc0 hc1 x0 x1 x2 x3 xs).2.1)

theorem coverLastS (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) (y : S1024x21.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S1024x21.size (by sl_kernel_rfl) y
def accLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) : Vec F S1024x21 .f32 :=
  VS.read (Elt F) (VS.writes (Elt F) VS.junk (runLast c i arg2 harg2 arg3 harg3 arg4 harg4 arg5 harg5 arg6 harg6 arg7 harg7 hc0 hc1 x0 x1 x2 x3 xs).2.1)
/-- The last case's piece covers window 4's block. -/
theorem coverLast4 (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) (y : S1024x21.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S1024x21.size (by sl_kernel_rfl) y
/-- What the last case leaves in window 4's staging buffer. -/
def outLast (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) : Vec F S1024x21 .f32 :=
  VO.read (Elt F) (VO.writes (Elt F) VO.junk (runLast c i arg2 harg2 arg3 harg3 arg4 harg4 arg5 harg5 arg6 harg6 arg7 harg7 hc0 hc1 x0 x1 x2 x3 xs).1)

/-! ## The accumulator after each point -/

theorem N64 : cfg0.N = 64 := N_0

/-- What the scratch holds after the body at position `n`: by the case the closed forms select there, the later cases
    over what position `n - 1` left. -/
def accAt (c : Dev nD) : (n : ℕ) → n < cfg0.N → Vec F S1024x21 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = 7 then False.elim (by omega)
      else accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = 7 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h0 : t.val % 8 = 0) (h1 : ¬t.val % 8 = 7) :
    accAt m c t.val t.isLt = accFirst c (grid0.coords t) (ms0 t) (hs0 t) (ms1 t) (hs1 t) (ms2 t) (hs2 t) (ms3 t) (hs3 t) (ms4 t) (hs4 t) scM (Memref.isWhole_whole _) ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt m c t.val t.isLt = accMid c (grid0.coords t) (ms0 t) (hs0 t) (ms1 t) (hs1 t) (ms2 t) (hs2 t) (ms3 t) (hs3 t) (ms4 t) (hs4 t) scM (Memref.isWhole_whole _) (fun h => h0 ((condFirst_iff t).mp h)) (fun h => h1 ((condLast_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt m c t.val t.isLt = accLast c (grid0.coords t) (ms0 t) (hs0 t) (ms1 t) (hs1 t) (ms2 t) (hs2 t) (ms3 t) (hs3 t) (ms4 t) (hs4 t) scM (Memref.isWhole_whole _) (fun h => h0 ((condFirst_iff t).mp h)) ((condLast_iff t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What window 4's staging buffer holds after the body at point `t`: where the fast coordinate is 7, what the last case
    leaves over the accumulator of the point before; elsewhere the window is idle and nothing consults this. -/
def out4At (c : Dev nD) (t : Fin cfg0.N) : Vec F S1024x21 .f32 :=
  if h1 : t.val % 8 = 7 then
    outLast c (grid0.coords t) (ms0 t) (hs0 t) (ms1 t) (hs1 t) (ms2 t) (hs2 t) (ms3 t) (hs3 t) (ms4 t) (hs4 t) scM (Memref.isWhole_whole _) (fun h => (fun h => by omega) ((condFirst_iff t).mp h)) ((condLast_iff t).mpr h1) (iblk m c 0 t) (iblk m c 1 t) (iblk m c 2 t) (iblk m c 3 t) (accAt m c (t.val - 1) (Nat.lt_of_le_of_lt (Nat.sub_le _ _) t.isLt))
  else VO.read (Elt F) VO.junk

theorem out4At_last (c : Dev nD) (t : Fin cfg0.N) (h0 : ¬t.val % 8 = 0) (h1 : t.val % 8 = 7) :
    out4At m c t = outLast c (grid0.coords t) (ms0 t) (hs0 t) (ms1 t) (hs1 t) (ms2 t) (hs2 t) (ms3 t) (hs3 t) (ms4 t) (hs4 t) scM (Memref.isWhole_whole _) (fun h => h0 ((condFirst_iff t).mp h)) ((condLast_iff t).mpr h1) (iblk m c 0 t) (iblk m c 1 t) (iblk m c 2 t) (iblk m c 3 t) (accAt m c (t.val - 1) (Nat.lt_of_le_of_lt (Nat.sub_le _ _) t.isLt)) := by
  unfold out4At; rw [dif_pos h1]

/-! ## The region's invariant, point by point -/

/-- Before the first point the scratch holds anything; before a later one, what the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and window 4's at `out4At`;
    the invariant `PhiS`; nothing owed; of each array two input windows share, the left half of the full share to the
    lower window and the right half to the upper. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4At m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4At m c t := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]
theorem leaves_in3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' buffers hold their blocks; the closed forms say which case the point is in; the
    invariant hands the body the scratch at what the point before left (at anything at the first point) and takes it
    back at this point's contents; window 4 is handed back untouched where idle and at the last case's contents where not. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt N64
  by_cases h0 : t.val % 8 = 0
  · have h1 : ¬t.val % 8 = 7 := by omega
    rw [Dat.leavesExact_idle (dats m 0 c) 4 t (idle4 t (fun h => h1 ((condLast_iff t).mp h))) (noFlush4 t (fun h => h1 ((condLast_iff t).mp h)))]
    rw [accAt_first m c t h0 h1]
    unfold accFirst; (try dsimp only)
    have hpre : (dats m 0 c).Φ t.castSucc ⊢ (iprop(∃ d, owns (c : Thread nD τ) scM fullShare d) : sProp 𝕄) := by
      rw [PhiS_castSucc m c t]
      by_cases hz : t.val = 0
      · rw [PhiS_zero m c _ _ hz, scopedRest_scratch]
      · rw [PhiS_pos m c _ _ hz]; iintro H; iexists _; iexact H
    iintro ⟨HS, Ho, ⟨%d0, H0⟩, ⟨%d1, H1⟩, ⟨%d2, H2⟩, ⟨%d3, H3⟩, ⟨%d4, H4⟩⟩
    ihave HS := hpre $$ HS
    iapply ((runFirst c (grid0.coords t) _ _ _ _ _ _ _ _ _ _ _ _ ((condFirst_iff t).mpr h0) (fun h => h1 ((condLast_iff t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS]
    · unfold owns; iexists _; isplitr
      swap; · iexact HS
      ipureintro; exact View.read_writes_of_cover _ _ _ _ _ (coverFirst c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hz : t.val ≠ 0 := fun hz => h0 (by rw [hz])
    by_cases h1 : t.val % 8 = 7
    · rw [show (dats m 0 c).leavesExact 4 t = owns (c : Thread nD τ) (ms4 t) fullShare ((dats m 0 c).after 4 t) from by
        unfold Dat.leavesExact; rw [live4 t ((condLast_iff t).mpr h1)], after4]
      rw [out4At_last m c t h0 h1, accAt_last m c t h0 h1]
      unfold outLast accLast; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((condFirst_iff t).mp h)) ((condLast_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (coverLastS c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast4 c _ _ _ _ _ _ _ _ _ _ _ _ _ _ _ _ _ _ _ _)
    · rw [Dat.leavesExact_idle (dats m 0 c) 4 t (idle4 t (fun h => h1 ((condLast_iff t).mp h))) (noFlush4 t (fun h => h1 ((condLast_iff t).mp h)))]
      rw [accAt_mid m c t h0 h1]
      unfold accMid; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((condFirst_iff t).mp h)) (fun h => h1 ((condLast_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (coverMid c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

/-- After the last point the invariant gives the scratch back at some contents. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have := N64; omega), scopedRest_scratch]
  iintro H; iexists _; iexact H

end Cert.KernelIdeal.Fr

end
-- ==== Proof.KiLaunch.lean ====
/-
  The launch. @main is the region alone. The feature array is handed to windows 0 and 1 and the channel array to
  windows 2 and 3: each of the two buffers, held whole at the full share on entry, is split into its two halves, one per
  window, which is all an input window's fetches need; the result array goes to window 4 whole. The run then ends with
  every window's array at what the proof data compute: an input's unchanged, the result's overwritten by the blocks
  written back. The frame claim reads the two argument arrays off that.
-/
import proofs.«163721_j62723702391546_1_alg».proof.Proof.KiFrame
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, whole at the full share, make the proof data's arrays at entry: the two
    shared ones split into halves. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg1, main_arg0, main_v0] (by decide) (by decide), bigSep_W0]
  have e0 : ((cfg0.win 0).arr.view.loc (c : Thread nD τ) ↦[(cfg0.win 0).arr.view.set]{(dats m 0 c).share 0} (dats m 0 c).arrAt 0 0 : sProp 𝕄)
      = ((c : Thread nD τ).loc main_arg1 ↦{fullShare.left} V m c main_arg1) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = ((c : Thread nD τ).loc main_arg1 ↦{fullShare.right} V m c main_arg1) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = ((c : Thread nD τ).loc main_arg0 ↦{fullShare.left} V m c main_arg0) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = ((c : Thread nD τ).loc main_arg0 ↦{fullShare.right} V m c main_arg0) := by
    rw [(arr_whole0 3).set_eq_univ]; rfl
  have e4 : ((cfg0.win 4).arr.view.loc (c : Thread nD τ) ↦[(cfg0.win 4).arr.view.set]{(dats m 0 c).share 4} (dats m 0 c).arrAt 4 0 : sProp 𝕄)
      = ((c : Thread nD τ).loc main_v0 ↦{fullShare} V m c main_v0) := by
    rw [(arr_whole0 4).set_eq_univ]; rfl
  rw [e0, e1, e2, e3, e4]
  show (iprop(((c : Thread nD τ).loc main_arg1 ↦{fullShare} V m c main_arg1) ∗ ((c : Thread nD τ).loc main_arg0 ↦{fullShare} V m c main_arg0) ∗ ((c : Thread nD τ).loc main_v0 ↦{fullShare} V m c main_v0)) : sProp 𝕄) ⊢ _
  iintro ⟨H1, H0, Hv⟩
  ihave ⟨H1l, H1r⟩ := (pointsTo_share (PosShare.mem_left_op_right fullShare)).1 $$ H1
  ihave ⟨H0l, H0r⟩ := (pointsTo_share (PosShare.mem_left_op_right fullShare)).1 $$ H0
  isplitl [H1l]; · iexact H1l
  isplitl [H1r]; · iexact H1r
  isplitl [H0l]; · iexact H0l
  isplitl [H0r]; · iexact H0r
  iexact Hv

/-- Every weakly fair execution of @main terminates, faulting nowhere, with each window's array at what the proof data
    compute from the blocks written back. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun c => rfl))
    (hsplit := hsplit m)
    (X := fun _ => iprop(emp)) (Y := fun _ => iprop(emp)) (Z := fun c => Pipeline.unscopedRest spec0 c (V m c))
    (hX := fun c => by iintro H; isplitr; · iempintro
                       iexact H)
    (hin := fun c => by iintro ⟨-, H⟩; iapply (hin m c); iexact H)
    (hout := fun c => by iintro H; isplitr; · iempintro
                         iapply (hout m c); iexact H)
    (QY := fun _ _ => True)
    (hY := fun c s' => by iintro ⟨-, -, HSI⟩; imodintro; isplitr; · ipureintro; trivial
                          iexact HSI)
    (hQ := fun s h c => (h c).1)

/-- The frame: both argument arrays end as they began (each is an input window's array, which nothing writes). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 2).trans (((dats m 0 c).arrAt_in 2 rfl _).trans (A_eq m c 2)),
     ((h c) 0).trans (((dats m 0 c).arrAt_in 0 rfl _).trans (A_eq m c 0))⟩) (run_main m ρ)

end Cert.KernelIdeal.Fr

end
-- ==== Proof.KiPieces.lean ====
/-
  What each case's pieces read back to, in terms of the body's three pure payloads: the middle and last cases leave in the
  scratch the third payload of the four loaded blocks and what the scratch held; the first case leaves the third payload
  over the zero block the case's first store put there; the last case leaves in window 4 the first payload of the
  accumulator just stored and window 3's block.
-/
import proofs.«163721_j62723702391546_1_alg».proof.Proof.KiFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem accMid_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : ¬condLast i) (x0 x1 : Vec F S1024x5 .f32) (x2 x3 : Vec F S1024x21 .f32) (xs : Vec F S1024x21 .f32) :
    accMid c i arg2 harg2 arg3 harg3 arg4 harg4 arg5 harg5 arg6 harg6 arg7 harg7 hc0 hc1 x0 x1 x2 x3 xs = k0_pay3 x0 x1 x2 xs := by
  unfold accMid
  rw [View.read_writes_eq_canon _ _ _ (coverMid c i arg2 harg2 arg3 harg3 arg4 harg4 arg5 harg5 arg6 harg6 arg7 harg7 hc0 hc1 x0 x1 x2 x3 xs)]
  unfold runMid; dsimp only
  sl_unfold_words
  rw [View.canon_unit_zero hz]
  simp only [View.readAt_eq_ld, harg2.read_unread, harg3.read_unread, harg4.read_unread, harg5.read_unread, harg7.read_unread,
    View.ld_unit_zero (S := S1024x5) hz, View.ld_unit_zero (S := S1024x21) hz]
  try rfl

theorem accFirst_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : condFirst i) (hc1 : ¬condLast i) (x0 x1 : Vec F S1024x5 .f32) (x2 x3 : Vec F S1024x21 .f32) :
    accFirst c i arg2 harg2 arg3 harg3 arg4 harg4 arg5 harg5 arg6 harg6 arg7 harg7 hc0 hc1 x0 x1 x2 x3 = k0_pay3 x0 x1 x2 (k0_pay2 (F := F)) := by
  unfold accFirst
  rw [View.read_writes_eq_canon _ _ _ (coverFirst c i arg2 harg2 arg3 harg3 arg4 harg4 arg5 harg5 arg6 harg6 arg7 harg7 hc0 hc1 x0 x1 x2 x3)]
  unfold runFirst; dsimp only
  sl_unfold_words
  rw [View.canon_cons_unit_zero hz, View.readCov_unit_zero _ hz]
  simp only [View.readAt_eq_ld, harg2.read_unread, harg3.read_unread, harg4.read_unread, harg5.read_unread, harg7.read_unread,
    View.ld_unit_zero (S := S1024x5) hz, View.ld_unit_zero (S := S1024x21) hz]
  try rfl

theorem outLast_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) :
    outLast c i arg2 harg2 arg3 harg3 arg4 harg4 arg5 harg5 arg6 harg6 arg7 harg7 hc0 hc1 x0 x1 x2 x3 xs = k0_pay1 (k0_pay3 x0 x1 x2 xs) x3 := by
  unfold outLast
  rw [View.read_writes_eq_canon _ _ _ (coverLast4 c i arg2 harg2 arg3 harg3 arg4 harg4 arg5 harg5 arg6 harg6 arg7 harg7 hc0 hc1 x0 x1 x2 x3 xs)]
  unfold runLast; dsimp only
  sl_unfold_words
  rw [View.canon_unit_zero hz, View.readCov_unit_zero _ hz]
  simp only [View.readAt_eq_ld, harg2.read_unread, harg3.read_unread, harg4.read_unread, harg5.read_unread, harg7.read_unread,
    View.ld_unit_zero (S := S1024x5) hz, View.ld_unit_zero (S := S1024x21) hz]
  try rfl

/-- The last case leaves in the scratch what the middle case does: the third payload over what the scratch held. -/
theorem accLast_eq (c : Dev nD) (i : grid0.Coords) (arg2 : Memref sig .tc .vmem S1024x5 .f32) (harg2 : arg2.IsWhole) (arg3 : Memref sig .tc .vmem S1024x5 .f32) (harg3 : arg3.IsWhole) (arg4 : Memref sig .tc .vmem S1024x21 .f32) (harg4 : arg4.IsWhole) (arg5 : Memref sig .tc .vmem S1024x21 .f32) (harg5 : arg5.IsWhole) (arg6 : Memref sig .tc .vmem S1024x21 .f32) (harg6 : arg6.IsWhole) (arg7 : Memref sig .tc .vmem S1024x21 .f32) (harg7 : arg7.IsWhole) (hc0 : ¬condFirst i) (hc1 : condLast i) (x0 x1 : Vec F S1024x5 .f32) (x2 x3 : Vec F S1024x21 .f32) (xs : Vec F S1024x21 .f32) :
    accLast c i arg2 harg2 arg3 harg3 arg4 harg4 arg5 harg5 arg6 harg6 arg7 harg7 hc0 hc1 x0 x1 x2 x3 xs = k0_pay3 x0 x1 x2 xs := by
  unfold accLast
  rw [View.read_writes_eq_canon _ _ _ (coverLastS c i arg2 harg2 arg3 harg3 arg4 harg4 arg5 harg5 arg6 harg6 arg7 harg7 hc0 hc1 x0 x1 x2 x3 xs)]
  unfold runLast; dsimp only
  sl_unfold_words
  rw [View.canon_unit_zero hz]
  simp only [View.readAt_eq_ld, harg2.read_unread, harg3.read_unread, harg4.read_unread, harg5.read_unread, harg7.read_unread,
    View.ld_unit_zero (S := S1024x5) hz, View.ld_unit_zero (S := S1024x21) hz]
  try rfl

end Cert.KernelIdeal.Fr

end
-- ==== Proof.Spec.lean ====
/-
  The function both programs compute, stated once over the argument arrays with no program imported.

  `U` is the array of 8192 rows of 21 channels, `R` the array of 8192 feature points of dimension 5. For rows
  `a, b` the weight is `exp (-1/2 · max (|R a|² + |R b|² - 2 · ⟨R a, R b⟩) 0)`: the Gaussian of the squared
  distance of the two points, the distance expanded into squared norms and an inner product and cut off below at zero.
  The result at `(a, c)` is the weighted sum over ALL rows `b` of `U (b, c)`, minus `U (a, c)` itself. Every
  operation is the extended reals' own; the three float constants are kept as the patterns both programs print.
-/
import Idealize.ShloMosaic.PureOps.Ideal
import Idealize.ShloMosaic.Lib.ValueIdx

noncomputable section

namespace Cert.Gauss

open Idealize.ShloMosaic Idealize.ShloMosaic.ValueIdx

/-- The array of feature points and the array of channels, as functions of a two-coordinate index. -/
abbrev Pts : Type := (⟨2, ![8192, 5]⟩ : Shape).Idx → EReal
abbrev Chn : Type := (⟨2, ![8192, 21]⟩ : Shape).Idx → EReal

/-- The squared norm of point `a`: the sum of the squares of its five coordinates. -/
def sqn (R : Pts) (a : Fin 8192) : EReal := ∑ k : Fin 5, R (ix2 a k) * R (ix2 a k)

/-- The inner product of points `a` and `b`. -/
def inner (R : Pts) (a b : Fin 8192) : EReal := ∑ k : Fin 5, R (ix2 a k) * R (ix2 b k)

/-- The weight of two points given by their coordinates: `exp (-1/2 · max ((|u|² + |v|²) - 2 · ⟨u, v⟩) 0)`. -/
def wgtOf (u v : Fin 5 → EReal) : EReal :=
  Ideal.exp (Ideal.ofBits .f32 0xBF000000#32
    * max (((∑ k : Fin 5, u k * u k) + (∑ k : Fin 5, v k * v k)) - Ideal.ofBits .f32 0x40000000#32 * (∑ k : Fin 5, u k * v k))
        (Ideal.ofBits .f32 0x00000000#32))

/-- The weight of the pair of rows `(a, b)` of `R`. -/
def wgt (R : Pts) (a b : Fin 8192) : EReal := wgtOf (fun k => R (ix2 a k)) (fun k => R (ix2 b k))

theorem wgt_eq (R : Pts) (a b : Fin 8192) : wgt R a b = Ideal.exp (Ideal.ofBits .f32 0xBF000000#32
    * max ((sqn R a + sqn R b) - Ideal.ofBits .f32 0x40000000#32 * inner R a b) (Ideal.ofBits .f32 0x00000000#32)) := rfl

/-- The filtered array: at `(a, c)`, the sum over every row `b` of `wgt a b · U (b, c)`, less `U (a, c)`. -/
def filt (U : Chn) (R : Pts) : Chn := fun i => (∑ b : Fin 8192, wgt R (i 0) b * U (ix2 b (i 1))) - U i

end Cert.Gauss

end
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.KiPayload.lean ====
/-
  The three values the kernel's body stores, each read at an index, over the extended reals.

  One grid point holds a block of 1024 rows `x0` and a block of 1024 rows `x1` of the feature points, the channels
  `x2` of the rows of `x1`, and the running sum `xs`. The body stores (i) the zero array, when a row of blocks begins,
  (ii) `xs + W · x2`, where the 1024 × 1024 block `W` has at `(p, q)` the weight of row `p` of `x0` and row `q` of `x1`
  — the Gaussian of their squared distance, the distance expanded as `(|u|² + |v|²) - 2 · ⟨u, v⟩` and cut off below at
  zero —, and (iii) the difference of two blocks, when a row of blocks ends. Read at `(p, c)` the second is
  `xs (p, c) + ∑ q, wgtOf (row p of x0) (row q of x1) · x2 (q, c)`.

  Each operation that moves data is read at an index by one small lemma over variables: the sum of squares along a row,
  that vector as a column and the column spread along rows, the column turned into a row and the row spread along columns,
  and the two matrix products into a zero accumulator, re-indexed by the one contracted coordinate. The operations that
  act element by element (products, sums, differences, maximum, exponential, the change of format, the splat of a
  constant) read through by unfolding.
-/
import proofs.«163721_j62723702391546_1_alg».proof.Proof.Spec
import proofs.«163721_j62723702391546_1_alg».proof.Proof.LibColumn
import proofs.«163721_j62723702391546_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The zero block: a splat of the zero pattern, recast to its own shape. -/
theorem pay2_apply (y : S1024x21.Idx) : k0_pay2 (F := Ideal) y = 0 := by
  unfold k0_pay2
  rw [shapeCast_self]
  exact Ideal.ofBits_zero_f32

/-- The difference of two blocks, element by element. -/
theorem pay1_apply (v36 v37 : Vec Ideal S1024x21 .f32) (y : S1024x21.Idx) : k0_pay1 v36 v37 y = v36 y - v37 y := rfl

/-- The sum of squares along a row: the lane sum of `x · x` at `p` is `∑ k, x (p, k) · x (p, k)`. -/
theorem sqn_apply (x : Vec Ideal S1024x5 .f32) (p : Fin 1024) :
    multiReduction (F := Ideal) .add [1] S1024 (mulf x x) 0x00000000#32 reduces_S1024x5_S1024 (.inl rfl) rfl (ix1 p)
      = ∑ k : Fin 5, x (ix2 p k) * x (ix2 p k) := by
  refine (Ideal.multiReduction_add_single (mulf x x) 0x00000000#32 reduces_S1024x5_S1024 (.inl rfl) rfl (ix1 p)).trans ?_
  refine Finset.sum_congr rfl fun k _ => ?_
  have e : reduces_S1024x5_S1024.lift (ix1 p) k = ix2 p k :=
    funext fun a => Fin.ext (by match a with | ⟨0, _⟩ => rfl | ⟨1, _⟩ => rfl)
  rw [e]
  rfl

/-- The column of row sums of squares, spread along rows: at `(p, q)` it is the sum of squares of row `p`. -/
theorem colsq_apply (x : Vec Ideal S1024x5 .f32) (p q : Fin 1024) :
    broadcastTo S1024x1024 (shapeCast S1024x1 (multiReduction (F := Ideal) .add [1] S1024 (mulf x x) 0x00000000#32
        reduces_S1024x5_S1024 (.inl rfl) rfl) shapeCasts_S1024_S1024x1) broadcasts_S1024x1_S1024x1024 (ix2 p q)
      = ∑ k : Fin 5, x (ix2 p k) * x (ix2 p k) :=
  (Cert.LibColumn.broadcastTo_a1_ab_apply _ _ p q).trans
    ((Cert.LibColumn.shapeCast_a_a1_apply _ _ p (0 : Fin 1)).trans (sqn_apply x p))

/-- The same column turned into a row and spread along columns: at `(p, q)` it is the sum of squares of row `q`. -/
theorem rowsq_apply (x : Vec Ideal S1024x5 .f32) (p q : Fin 1024) :
    broadcastTo S1024x1024 (transpose S1x1024 [1, 0] (shapeCast S1024x1 (multiReduction (F := Ideal) .add [1] S1024 (mulf x x)
        0x00000000#32 reduces_S1024x5_S1024 (.inl rfl) rfl) shapeCasts_S1024_S1024x1) transposes_S1024x1_p1_0_S1x1024)
        broadcasts_S1x1024_S1024x1024 (ix2 p q)
      = ∑ k : Fin 5, x (ix2 q k) * x (ix2 q k) :=
  (broadcastTo_1b_ab_apply _ _ p q).trans
    ((transpose_ix2_apply _ _ (0 : Fin 1) q).trans
      ((Cert.LibColumn.shapeCast_a_a1_apply _ _ q (0 : Fin 1)).trans (sqn_apply x q)))

/-! ## The first product: rows of `x0` against rows of `x1` (both contracted on their second axis) -/

theorem dotA_lhs0 (i : S1024x1024.Idx) (κ : dot_S1024x5_S1024x5_S1024x1024_1_1_0_0_n_n.contr.Idx) :
    (dot_S1024x5_S1024x5_S1024x1024_1_1_0_0_n_n.lhsIdx i κ 0).val = (i 0).val := by
  unfold DotDims.lhsIdx
  rw [dif_neg (show ¬(0 : Fin S1024x5.rank) ∈ dot_S1024x5_S1024x5_S1024x1024_1_1_0_0_n_n.lhsBatch by decide),
    dif_pos (show (0 : Fin S1024x5.rank) ∈ dot_S1024x5_S1024x5_S1024x1024_1_1_0_0_n_n.lhsNonContracting by decide)]
  rfl
theorem dotA_lhs1 (i : S1024x1024.Idx) (κ : dot_S1024x5_S1024x5_S1024x1024_1_1_0_0_n_n.contr.Idx) :
    (dot_S1024x5_S1024x5_S1024x1024_1_1_0_0_n_n.lhsIdx i κ 1).val = (κ ⟨0, by decide⟩).val :=
  dot_S1024x5_S1024x5_S1024x1024_1_1_0_0_n_n.lhsIdx_val_of_single rfl i κ
theorem dotA_rhs0 (i : S1024x1024.Idx) (κ : dot_S1024x5_S1024x5_S1024x1024_1_1_0_0_n_n.contr.Idx) :
    (dot_S1024x5_S1024x5_S1024x1024_1_1_0_0_n_n.rhsIdx i κ 0).val = (i 1).val := by
  unfold DotDims.rhsIdx
  rw [dif_neg (show ¬(0 : Fin S1024x5.rank) ∈ dot_S1024x5_S1024x5_S1024x1024_1_1_0_0_n_n.rhsBatch by decide),
    dif_pos (show (0 : Fin S1024x5.rank) ∈ dot_S1024x5_S1024x5_S1024x1024_1_1_0_0_n_n.rhsNonContracting by decide)]
  rfl
theorem dotA_rhs1 (i : S1024x1024.Idx) (κ : dot_S1024x5_S1024x5_S1024x1024_1_1_0_0_n_n.contr.Idx) :
    (dot_S1024x5_S1024x5_S1024x1024_1_1_0_0_n_n.rhsIdx i κ 1).val = (κ ⟨0, by decide⟩).val :=
  dot_S1024x5_S1024x5_S1024x1024_1_1_0_0_n_n.rhsIdx_val_of_single rfl i κ

/-- The product into a zero accumulator, at `(p, q)`: the inner product of row `p` of `x0` and row `q` of `x1`. -/
theorem dotA_apply (x0 x1 : Vec Ideal S1024x5 .f32) (p q : Fin 1024) :
    matmul (F := Ideal) (φ₁ := .f32) (φ₂ := .f32) dot_S1024x5_S1024x5_S1024x1024_1_1_0_0_n_n (some .fp32) x0 x1
        (constant (F := Ideal) S1024x1024 .f32 0x00000000#32) (ix2 p q)
      = ∑ k : Fin 5, x0 (ix2 p k) * x1 (ix2 q k) := by
  refine (Ideal.matmul_constant_zero_apply (φ₁ := .f32) (φ₂ := .f32) dot_S1024x5_S1024x5_S1024x1024_1_1_0_0_n_n (some .fp32)
    x0 x1 (ix2 p q)).trans ?_
  rw [← Equiv.sum_comp (contrEquiv1 dot_S1024x5_S1024x5_S1024x1024_1_1_0_0_n_n 5 rfl rfl).symm]
  refine Finset.sum_congr rfl fun k _ => ?_
  have hk := contrEquiv1_symm_val dot_S1024x5_S1024x5_S1024x1024_1_1_0_0_n_n 5 rfl rfl k
  have el : dot_S1024x5_S1024x5_S1024x1024_1_1_0_0_n_n.lhsIdx (ix2 p q)
      ((contrEquiv1 dot_S1024x5_S1024x5_S1024x1024_1_1_0_0_n_n 5 rfl rfl).symm k) = ix2 p k := funext fun a => Fin.ext (by
    match a with
    | ⟨0, _⟩ => exact dotA_lhs0 _ _
    | ⟨1, _⟩ => exact (dotA_lhs1 _ _).trans hk)
  have er : dot_S1024x5_S1024x5_S1024x1024_1_1_0_0_n_n.rhsIdx (ix2 p q)
      ((contrEquiv1 dot_S1024x5_S1024x5_S1024x1024_1_1_0_0_n_n 5 rfl rfl).symm k) = ix2 q k := funext fun a => Fin.ext (by
    match a with
    | ⟨0, _⟩ => exact dotA_rhs0 _ _
    | ⟨1, _⟩ => exact (dotA_rhs1 _ _).trans hk)
  rw [el, er]

/-! ## The second product: the block of weights against the channels (second axis against first) -/

theorem dotB_lhs0 (i : S1024x21.Idx) (κ : dot_S1024x1024_S1024x21_S1024x21_1_0_0_1_n_n.contr.Idx) :
    (dot_S1024x1024_S1024x21_S1024x21_1_0_0_1_n_n.lhsIdx i κ 0).val = (i 0).val := by
  unfold DotDims.lhsIdx
  rw [dif_neg (show ¬(0 : Fin S1024x1024.rank) ∈ dot_S1024x1024_S1024x21_S1024x21_1_0_0_1_n_n.lhsBatch by decide),
    dif_pos (show (0 : Fin S1024x1024.rank) ∈ dot_S1024x1024_S1024x21_S1024x21_1_0_0_1_n_n.lhsNonContracting by decide)]
  rfl
theorem dotB_lhs1 (i : S1024x21.Idx) (κ : dot_S1024x1024_S1024x21_S1024x21_1_0_0_1_n_n.contr.Idx) :
    (dot_S1024x1024_S1024x21_S1024x21_1_0_0_1_n_n.lhsIdx i κ 1).val = (κ ⟨0, by decide⟩).val :=
  dot_S1024x1024_S1024x21_S1024x21_1_0_0_1_n_n.lhsIdx_val_of_single rfl i κ
theorem dotB_rhs0 (i : S1024x21.Idx) (κ : dot_S1024x1024_S1024x21_S1024x21_1_0_0_1_n_n.contr.Idx) :
    (dot_S1024x1024_S1024x21_S1024x21_1_0_0_1_n_n.rhsIdx i κ 0).val = (κ ⟨0, by decide⟩).val :=
  dot_S1024x1024_S1024x21_S1024x21_1_0_0_1_n_n.rhsIdx_val_of_single rfl i κ
theorem dotB_rhs1 (i : S1024x21.Idx) (κ : dot_S1024x1024_S1024x21_S1024x21_1_0_0_1_n_n.contr.Idx) :
    (dot_S1024x1024_S1024x21_S1024x21_1_0_0_1_n_n.rhsIdx i κ 1).val = (i 1).val := by
  unfold DotDims.rhsIdx
  rw [dif_neg (show ¬(1 : Fin S1024x21.rank) ∈ dot_S1024x1024_S1024x21_S1024x21_1_0_0_1_n_n.rhsBatch by decide),
    dif_pos (show (1 : Fin S1024x21.rank) ∈ dot_S1024x1024_S1024x21_S1024x21_1_0_0_1_n_n.rhsNonContracting by decide)]
  rfl

/-- The product into a zero accumulator, at `(p, c)`: `∑ q, w (p, q) · x (q, c)`. -/
theorem dotB_apply (w : FVec Ideal S1024x1024 .bf16) (x : FVec Ideal S1024x21 .bf16) (p : Fin 1024) (c : Fin 21) :
    matmul (F := Ideal) dot_S1024x1024_S1024x21_S1024x21_1_0_0_1_n_n none w x
        (constant (F := Ideal) S1024x21 .f32 0x00000000#32) (ix2 p c)
      = ∑ q : Fin 1024, w (ix2 p q) * x (ix2 q c) := by
  refine (Ideal.matmul_constant_zero_apply dot_S1024x1024_S1024x21_S1024x21_1_0_0_1_n_n none w x (ix2 p c)).trans ?_
  rw [← Equiv.sum_comp (contrEquiv1 dot_S1024x1024_S1024x21_S1024x21_1_0_0_1_n_n 1024 rfl rfl).symm]
  refine Finset.sum_congr rfl fun q _ => ?_
  have hq := contrEquiv1_symm_val dot_S1024x1024_S1024x21_S1024x21_1_0_0_1_n_n 1024 rfl rfl q
  have el : dot_S1024x1024_S1024x21_S1024x21_1_0_0_1_n_n.lhsIdx (ix2 p c)
      ((contrEquiv1 dot_S1024x1024_S1024x21_S1024x21_1_0_0_1_n_n 1024 rfl rfl).symm q) = ix2 p q := funext fun a => Fin.ext (by
    match a with
    | ⟨0, _⟩ => exact dotB_lhs0 _ _
    | ⟨1, _⟩ => exact (dotB_lhs1 _ _).trans hq)
  have er : dot_S1024x1024_S1024x21_S1024x21_1_0_0_1_n_n.rhsIdx (ix2 p c)
      ((contrEquiv1 dot_S1024x1024_S1024x21_S1024x21_1_0_0_1_n_n 1024 rfl rfl).symm q) = ix2 q c := funext fun a => Fin.ext (by
    match a with
    | ⟨0, _⟩ => exact (dotB_rhs0 _ _).trans hq
    | ⟨1, _⟩ => exact dotB_rhs1 _ _)
  rw [el, er]

/-! ## The block of weights -/

/-- The 1024 × 1024 block the body forms from the two blocks of points: the exponential of `-1/2` times the
    squared distances cut off below at zero, the distances as `(column of |u|² + row of |v|²) - 2 · (u · vᵀ)`. -/
def wblock (x0 x1 : Vec Ideal S1024x5 .f32) : FVec Ideal S1024x1024 .f32 :=
  exp (mulf (broadcast S1024x1024 (Scalar.ofBits (F := Ideal) .f32 0xBF000000#32))
    (maximumf
      (subf
        (addf
          (broadcastTo S1024x1024 (shapeCast S1024x1 (multiReduction (F := Ideal) .add [1] S1024 (mulf x0 x0) 0x00000000#32
            reduces_S1024x5_S1024 (.inl rfl) rfl) shapeCasts_S1024_S1024x1) broadcasts_S1024x1_S1024x1024)
          (broadcastTo S1024x1024 (transpose S1x1024 [1, 0] (shapeCast S1024x1 (multiReduction (F := Ideal) .add [1] S1024
            (mulf x1 x1) 0x00000000#32 reduces_S1024x5_S1024 (.inl rfl) rfl) shapeCasts_S1024_S1024x1)
            transposes_S1024x1_p1_0_S1x1024) broadcasts_S1x1024_S1024x1024))
        (mulf (broadcast S1024x1024 (Scalar.ofBits (F := Ideal) .f32 0x40000000#32))
          (matmul (F := Ideal) (φ₁ := .f32) (φ₂ := .f32) dot_S1024x5_S1024x5_S1024x1024_1_1_0_0_n_n (some .fp32) x0 x1
            (constant (F := Ideal) S1024x1024 .f32 0x00000000#32))))
      (broadcast S1024x1024 (Scalar.ofBits (F := Ideal) .f32 0x00000000#32))))

/-- Its entry at `(p, q)` is the weight of row `p` of `x0` and row `q` of `x1`. -/
theorem wblock_apply (x0 x1 : Vec Ideal S1024x5 .f32) (p q : Fin 1024) :
    wblock x0 x1 (ix2 p q) = Cert.Gauss.wgtOf (fun k => x0 (ix2 p k)) (fun k => x1 (ix2 q k)) := by
  have h1 := colsq_apply x0 p q
  have h2 := rowsq_apply x1 p q
  have h3 := dotA_apply x0 x1 p q
  unfold wblock Cert.Gauss.wgtOf
  show Ideal.exp (Ideal.ofBits .f32 0xBF000000#32 * max ((_ + _) - Ideal.ofBits .f32 0x40000000#32 * _)
    (Ideal.ofBits .f32 0x00000000#32)) = _
  rw [h1, h2, h3]

/-! ## The stored block -/

/-- The running sum plus the block of weights times the channels, read at `(p, c)`. -/
theorem pay3_apply (x0 x1 : Vec Ideal S1024x5 .f32) (x2 xs : Vec Ideal S1024x21 .f32) (p : Fin 1024) (c : Fin 21) :
    k0_pay3 x0 x1 x2 xs (ix2 p c)
      = xs (ix2 p c) + ∑ q : Fin 1024, Cert.Gauss.wgtOf (fun k => x0 (ix2 p k)) (fun k => x1 (ix2 q k)) * x2 (ix2 q c) := by
  have e : k0_pay3 x0 x1 x2 xs = addf xs (matmul (F := Ideal) dot_S1024x1024_S1024x21_S1024x21_1_0_0_1_n_n none
      (truncf .bf16 (wblock x0 x1) bitsLt_bf16_f32) (truncf (φ := .f32) .bf16 x2 bitsLt_bf16_f32)
      (constant (F := Ideal) S1024x21 .f32 0x00000000#32)) := by
    unfold k0_pay3 wblock
    exact shapeCast_self _ _
  rw [e]
  refine congrArg (xs (ix2 p c) + ·) ?_
  refine (dotB_apply _ _ p c).trans (Finset.sum_congr rfl fun q _ => ?_)
  show wblock x0 x1 (ix2 p q) * x2 (ix2 q c) = _
  rw [wblock_apply]

end Cert.KernelIdeal.Pay

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.KiBlocks.lean ====
/-
  The windows' blocks read at an index, and the points whose blocks cover the result array.

  The grid has 8 × 8 points, point `t` being `(t / 8, t % 8)`. Every window cuts its array into 8 blocks of 1024 rows,
  all columns kept: block `j` holds rows `j · 1024 + p`, `p < 1024`. Windows 0 and 3 follow the slow coordinate `t / 8`,
  windows 1 and 2 the fast coordinate `t % 8`; window 4, the result, follows the slow one and is written back where the
  fast coordinate is 7. So a block read at `(p, k)` is the array at `(j · 1024 + p, k)` for the window's `j`, and row
  `r` of the result lies in the block written back at point `(r / 1024) · 8 + 7`.
-/
import proofs.«163721_j62723702391546_1_alg».proof.Proof.KiFrame
import proofs.«163721_j62723702391546_1_alg».proof.Proof.LibEReal
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.TcCoe
  Idealize.ShloMosaic.ValueIdx Idealize.SL.Sem
open Idealize.ShloMosaic.Pipeline (Dat Cfg Window)

variable {F : FTy → Type} [FloatOps F] (m : (ℓ : Loc nD τ sig) → Buf (Elt F) ℓ)

/-- Row `p` of block `j` among the 8 blocks of 1024 rows: row `j · 1024 + p`. -/
def row (j : Fin 8) (p : Fin 1024) : Fin 8192 := Cert.Spec.blockIdx (T := 8) (B := 1024) (n := 8192) (by norm_num) j p

theorem row_val (j : Fin 8) (p : Fin 1024) : (row j p).val = j.val * 1024 + p.val := rfl

/-- The slow coordinate of point `t`. -/
def ti (t : Fin cfg0.N) : Fin 8 := ⟨t.val / 8, by have h := t.isLt; have hN := N64; omega⟩
/-- The fast coordinate of point `t`. -/
def tj (t : Fin cfg0.N) : Fin 8 := ⟨t.val % 8, Nat.mod_lt _ (by decide)⟩

theorem ti_val (t : Fin cfg0.N) : (ti t).val = t.val / 8 := rfl
theorem tj_val (t : Fin cfg0.N) : (tj t).val = t.val % 8 := rfl

/-- The index maps over the grid: windows 0, 3 and 4 take block `t / 8`, windows 1 and 2 block `t % 8`, all of them
    the one block of columns. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- Window 0's block at `t` is block `t / 8` of the feature array. -/
theorem iblk0_apply (c : Dev nD) (t : Fin cfg0.N) (p : Fin 1024) (k : Fin 5) :
    iblk m c 0 t (ix2 p k) = V m c main_arg1 (ix2 (row (ti t) p) k) := by
  obtain ⟨e0, e1, -⟩ := idx_facts t
  show V m c main_arg1 (((cfg0.win 0).blk t).view.emb (ix2 p k)) = V m c main_arg1 (ix2 (row (ti t) p) k)
  refine congrArg (V m c main_arg1) (funext fun a => Fin.ext ?_)
  match a with
  | ⟨0, _⟩ => show win0_0.index t (0 : Fin 2) * 1024 + 1 * p.val = t.val / 8 * 1024 + p.val; omega
  | ⟨1, _⟩ => show win0_0.index t (1 : Fin 2) * 5 + 1 * k.val = k.val; omega

/-- Window 1's block at `t` is block `t % 8` of the feature array. -/
theorem iblk1_apply (c : Dev nD) (t : Fin cfg0.N) (q : Fin 1024) (k : Fin 5) :
    iblk m c 1 t (ix2 q k) = V m c main_arg1 (ix2 (row (tj t) q) k) := by
  obtain ⟨-, -, e0, e1, -⟩ := idx_facts t
  show V m c main_arg1 (((cfg0.win 1).blk t).view.emb (ix2 q k)) = V m c main_arg1 (ix2 (row (tj t) q) k)
  refine congrArg (V m c main_arg1) (funext fun a => Fin.ext ?_)
  match a with
  | ⟨0, _⟩ => show win0_1.index t (0 : Fin 2) * 1024 + 1 * q.val = t.val % 8 * 1024 + q.val; omega
  | ⟨1, _⟩ => show win0_1.index t (1 : Fin 2) * 5 + 1 * k.val = k.val; omega

/-- Window 2's block at `t` is block `t % 8` of the channel array. -/
theorem iblk2_apply (c : Dev nD) (t : Fin cfg0.N) (q : Fin 1024) (cc : Fin 21) :
    iblk m c 2 t (ix2 q cc) = V m c main_arg0 (ix2 (row (tj t) q) cc) := by
  obtain ⟨-, -, -, -, e0, e1, -⟩ := idx_facts t
  show V m c main_arg0 (((cfg0.win 2).blk t).view.emb (ix2 q cc)) = V m c main_arg0 (ix2 (row (tj t) q) cc)
  refine congrArg (V m c main_arg0) (funext fun a => Fin.ext ?_)
  match a with
  | ⟨0, _⟩ => show win0_2.index t (0 : Fin 2) * 1024 + 1 * q.val = t.val % 8 * 1024 + q.val; omega
  | ⟨1, _⟩ => show win0_2.index t (1 : Fin 2) * 21 + 1 * cc.val = cc.val; omega

/-- Window 3's block at `t` is block `t / 8` of the channel array. -/
theorem iblk3_apply (c : Dev nD) (t : Fin cfg0.N) (p : Fin 1024) (cc : Fin 21) :
    iblk m c 3 t (ix2 p cc) = V m c main_arg0 (ix2 (row (ti t) p) cc) := by
  obtain ⟨-, -, -, -, -, -, e0, e1, -⟩ := idx_facts t
  show V m c main_arg0 (((cfg0.win 3).blk t).view.emb (ix2 p cc)) = V m c main_arg0 (ix2 (row (ti t) p) cc)
  refine congrArg (V m c main_arg0) (funext fun a => Fin.ext ?_)
  match a with
  | ⟨0, _⟩ => show win0_3.index t (0 : Fin 2) * 1024 + 1 * p.val = t.val / 8 * 1024 + p.val; omega
  | ⟨1, _⟩ => show win0_3.index t (1 : Fin 2) * 21 + 1 * cc.val = cc.val; omega

/-- Window 4's block at `t`, read off any contents of the result array, is block `t / 8` of them. -/
theorem blk4_read (c : Dev nD) (t : Fin cfg0.N) (G : Buf (Elt F) ((cfg0.win 4).arr.view.loc (c.tc : Thread nD τ)))
    (p : Fin 1024) (cc : Fin 21) :
    ((cfg0.win 4).blk t).view.read (Elt F) G (ix2 p cc) = G (ix2 (row (ti t) p) cc) := by
  obtain ⟨-, -, -, -, -, -, -, -, e0, e1⟩ := idx_facts t
  show G (((cfg0.win 4).blk t).view.emb (ix2 p cc)) = G (ix2 (row (ti t) p) cc)
  refine congrArg G (funext fun a => Fin.ext ?_)
  match a with
  | ⟨0, _⟩ => show win0_4.index t (0 : Fin 2) * 1024 + 1 * p.val = t.val / 8 * 1024 + p.val; omega
  | ⟨1, _⟩ => show win0_4.index t (1 : Fin 2) * 21 + 1 * cc.val = cc.val; omega

/-- An index of the result array is in point `t`'s block iff each coordinate is in the block's range on its axis. -/
theorem mem_blk4 (t : Fin cfg0.N) (i : S8192x21.Idx) :
    i ∈ ((cfg0.win 4).blk t).view.set ↔ ∀ a : Fin 2, win0_4.index t a * S1024x21.size a ≤ (i a).val
      ∧ (i a).val < win0_4.index t a * S1024x21.size a + S1024x21.size a := by
  show i ∈ ((View.whole main_v0).slice (win0_4.rect t)).set ↔ _
  rw [View.set_slice_whole, Rect.mem_set_unit]
  exact Iff.rfl

/-- Every index of the result array is in the block some point writes back: row `r` in that of point
    `(r / 1024) · 8 + 7`, whose slow coordinate is `r / 1024` and whose fast coordinate is 7. -/
theorem cover4_lit (i : S8192x21.Idx) :
    ∃ t : Fin cfg0.N, (cfg0.win 4).flush t = true ∧ i ∈ ((cfg0.win 4).blk t).view.set := by
  have hi0 : (i 0).val < 8192 := (i 0).isLt
  have hi1 : (i 1).val < 21 := (i 1).isLt
  have hN := N64
  have ht : (i 0).val / 1024 * 8 + 7 < cfg0.N := by omega
  obtain ⟨-, -, -, -, -, -, -, -, e0, e1⟩ := idx_facts ⟨(i 0).val / 1024 * 8 + 7, ht⟩
  refine ⟨⟨(i 0).val / 1024 * 8 + 7, ht⟩, (flush0_4 _).mpr (by show ((i 0).val / 1024 * 8 + 7) % 8 = 7; omega), ?_⟩
  rw [mem_blk4]
  intro a
  match a with
  | ⟨0, _⟩ =>
    show win0_4.index ⟨(i 0).val / 1024 * 8 + 7, ht⟩ (0 : Fin 2) * 1024 ≤ (i 0).val
      ∧ (i 0).val < win0_4.index ⟨(i 0).val / 1024 * 8 + 7, ht⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_4.index ⟨(i 0).val / 1024 * 8 + 7, ht⟩ (1 : Fin 2) * 21 ≤ (i 1).val
      ∧ (i 1).val < win0_4.index ⟨(i 0).val / 1024 * 8 + 7, ht⟩ (1 : Fin 2) * 21 + 21
    rw [e1]
    omega

/-- The same over the index type the window's array carries. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set :=
  cover4_lit i

end Cert.KernelIdeal.Val

end
-- ==== Proof.BlockSum.lean ====
/-
  The sum over all 8192 rows, taken as eight consecutive blocks of 1024 rows accumulated in order.

  `blockSum f j` is the sum of `f` over the rows `j · 1024 + q`, `q < 1024`, of block `j`; `psum f j` is the running sum
  of the block sums of blocks `0, …, j`, each new block added on the right. The running sum after the last block is the
  sum of `f` over every row: a sum over `8 · 1024` indices is the sum over the blocks of the sums within a block, and
  the sum over eight blocks written out is the running sum's own bracketing. Only the commutative-monoid structure of
  the extended reals' addition is used; nothing is assumed finite.

  `filt_apply` reads the specification at an index given by its two coordinates.
-/
import proofs.«163721_j62723702391546_1_alg».proof.Proof.Spec
import proofs.«163721_j62723702391546_1_alg».proof.Proof.LibEReal

noncomputable section

namespace Cert.Gauss

open Idealize.ShloMosaic Idealize.ShloMosaic.ValueIdx

/-- The sum of `f` over the 1024 rows of block `j`: rows `j · 1024 + q`. -/
def blockSum (f : Fin 8192 → EReal) (j : Fin 8) : EReal :=
  ∑ q : Fin 1024, f (Cert.Spec.blockIdx (T := 8) (B := 1024) (n := 8192) (by norm_num) j q)

/-- The running sum of the block sums of blocks `0, …, j`, accumulated in order. -/
def psum (f : Fin 8192 → EReal) : (j : ℕ) → j < 8 → EReal
  | 0, h => blockSum f ⟨0, h⟩
  | j + 1, h => psum f j (by omega) + blockSum f ⟨j + 1, h⟩

theorem psum_zero (f : Fin 8192 → EReal) (h : 0 < 8) : psum f 0 h = blockSum f ⟨0, h⟩ := rfl

theorem psum_succ (f : Fin 8192 → EReal) (j : ℕ) (h : j + 1 < 8) :
    psum f (j + 1) h = psum f j (by omega) + blockSum f ⟨j + 1, h⟩ := rfl

/-- The running sum after the eighth block is the sum over every row. -/
theorem psum_last (f : Fin 8192 → EReal) : psum f 7 (by norm_num) = ∑ b : Fin 8192, f b := by
  rw [Cert.Spec.sum_blocks (T := 8) (B := 1024) (by norm_num) f, Fin.sum_univ_eight]
  rfl

/-- The specification at `(a, c)`: the weighted sum over every row `b` of `U (b, c)`, less `U (a, c)`. -/
theorem filt_apply (U : Chn) (R : Pts) (a : Fin 8192) (c : Fin 21) :
    filt U R (ix2 a c) = (∑ b : Fin 8192, wgt R a b * U (ix2 b c)) - U (ix2 a c) := rfl

end Cert.Gauss

end
-- ==== Proof.KiValue.lean ====
/-
  The result array after the run, at the ideal instance, is the specification's filtered array.

  Fix a channel `cc`, a point `t = (i, j)` of the grid and a row `p` of block `i`; write `a` for the global row
  `1024·i + p`. By induction along the fast axis, what the scratch accumulator holds at `(p, cc)` after point `t` is the
  running sum, over the blocks `0 … j` taken in order, of the block sums of `b ↦ wgt a b · U (b, cc)`: the first case
  starts it from the zero block, every later case adds one block's sum to what the point before left — each block sum being
  the third payload's, read at an index, on the four blocks the point stages. Where `j = 7` the block written back is that
  running sum less `U (a, cc)`, and the running sum over all eight blocks is the sum over all 8192 rows (only the
  associativity and commutativity of the extended reals' addition are used: no finiteness). The eight write-backs' blocks
  tile the result array.
-/
import proofs.«163721_j62723702391546_1_alg».proof.Proof.KiLaunch
import proofs.«163721_j62723702391546_1_alg».proof.Proof.KiPieces
import proofs.«163721_j62723702391546_1_alg».proof.Proof.KiPayload
import proofs.«163721_j62723702391546_1_alg».proof.Proof.KiBlocks
import proofs.«163721_j62723702391546_1_alg».proof.Proof.BlockSum

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The two argument arrays as the region finds them. -/
abbrev U0 (c : Dev nD) : Cert.Gauss.Chn := V m c main_arg0
abbrev R0 (c : Dev nD) : Cert.Gauss.Pts := V m c main_arg1

/-- The summand of row `a` and channel `cc`. -/
abbrev term (c : Dev nD) (a : Fin 8192) (cc : Fin 21) : Fin 8192 → EReal := fun b => Cert.Gauss.wgt (R0 m c) a b * U0 m c (ix2 b cc)

theorem psum_congr (f : Fin 8192 → EReal) {j j' : ℕ} (e : j = j') (h : j < 8) (h' : j' < 8) :
    Cert.Gauss.psum f j h = Cert.Gauss.psum f j' h' := by subst e; rfl

/-- One point's block sum, from the third payload's sum over the block's rows. -/
theorem block_term (c : Dev nD) (t : Fin cfg0.N) (p : Fin 1024) (cc : Fin 21) :
    (∑ q : Fin 1024, Cert.Gauss.wgtOf (fun k => iblk m c 0 t (ix2 p k)) (fun k => iblk m c 1 t (ix2 q k)) * iblk m c 2 t (ix2 q cc))
      = Cert.Gauss.blockSum (term m c (row (ti t) p) cc) (tj t) := by
  unfold Cert.Gauss.blockSum
  refine Finset.sum_congr rfl fun q _ => ?_
  simp only [iblk0_apply, iblk1_apply, iblk2_apply]
  rfl

/-- The accumulator after position `n`, at `(p, cc)`: the running sum of the block sums up to the fast coordinate. -/
theorem accAt_apply (c : Dev nD) : ∀ (n : ℕ) (hn : n < cfg0.N) (p : Fin 1024) (cc : Fin 21),
    accAt m c n hn (ix2 p cc) = Cert.Gauss.psum (term m c (row (ti ⟨n, hn⟩) p) cc) (n % 8) (Nat.mod_lt _ (by norm_num)) := by
  intro n
  induction n with
  | zero =>
    intro hn p cc
    rw [accAt_first m c ⟨0, hn⟩ (Nat.zero_mod _) (show ¬(0 % 8 = 7) by decide), accFirst_eq, pay3_apply, pay2_apply, zero_add, block_term]
    rfl
  | succ n ih =>
    intro hn p cc
    have hN : n + 1 < 64 := lt_of_lt_of_eq hn N64
    by_cases h0 : (n + 1) % 8 = 0
    · have h1 : ¬(n + 1) % 8 = 7 := by omega
      rw [accAt_first m c ⟨n + 1, hn⟩ h0 h1, accFirst_eq, pay3_apply, pay2_apply, zero_add, block_term]
      rw [psum_congr _ h0 _ (by norm_num), Cert.Gauss.psum_zero]
      congr 1
      exact Fin.ext (show (n + 1) % 8 = 0 from h0)
    · have hprev : accAt m c ((⟨n + 1, hn⟩ : Fin cfg0.N).val - 1) (Nat.lt_of_le_of_lt (Nat.sub_le _ _) hn) = accAt m c n (Nat.lt_of_succ_lt hn) := rfl
      have hti : ti (⟨n, Nat.lt_of_succ_lt hn⟩ : Fin cfg0.N) = ti (⟨n + 1, hn⟩ : Fin cfg0.N) := Fin.ext (by show n / 8 = (n + 1) / 8; omega)
      have hstep : Cert.Gauss.psum (term m c (row (ti ⟨n + 1, hn⟩) p) cc) (n % 8) (Nat.mod_lt _ (by norm_num))
            + Cert.Gauss.blockSum (term m c (row (ti ⟨n + 1, hn⟩) p) cc) (tj ⟨n + 1, hn⟩)
          = Cert.Gauss.psum (term m c (row (ti ⟨n + 1, hn⟩) p) cc) ((n + 1) % 8) (Nat.mod_lt _ (by norm_num)) := by
        have e : (n + 1) % 8 = n % 8 + 1 := by omega
        rw [psum_congr _ e _ (by omega), Cert.Gauss.psum_succ]
        congr 2
        exact Fin.ext e
      by_cases h1 : (n + 1) % 8 = 7
      · rw [accAt_last m c ⟨n + 1, hn⟩ h0 h1, accLast_eq, pay3_apply, hprev, ih, block_term, hti, hstep]
      · rw [accAt_mid m c ⟨n + 1, hn⟩ h0 h1, accMid_eq, pay3_apply, hprev, ih, block_term, hti, hstep]

/-- The result array both programs are compared at. -/
abbrev G (c : Dev nD) : Buf (Elt Ideal) ((cfg0.win 4).arr.view.loc (c.tc : Thread nD τ)) :=
  Cert.Gauss.filt (U0 m c) (R0 m c)

/-- What a write-back writes is its block of the filtered array. -/
theorem flushed_eq (c : Dev nD) (t : Fin cfg0.N) (hf : (cfg0.win 4).flush t = true) :
    (dats m 0 c).flushed 4 t = ((cfg0.win 4).blk t).view.read (Elt Ideal) (G m c) := by
  have h1 : t.val % 8 = 7 := (flush0_4 t).mp hf
  have h0 : ¬t.val % 8 = 0 := by omega
  show (cfg0.win 4).cut (grid0.coords t) ((dats m 0 c).after 4 t) = _
  have hacc : accAt m c t.val t.isLt
      = k0_pay3 (iblk m c 0 t) (iblk m c 1 t) (iblk m c 2 t) (accAt m c (t.val - 1) (Nat.lt_of_le_of_lt (Nat.sub_le _ _) t.isLt)) := by
    rw [accAt_last m c t h0 h1, accLast_eq]
  rw [after4, out4At_last m c t h0 h1, outLast_eq, ← hacc]
  funext y
  obtain ⟨p, cc, rfl⟩ : ∃ (p : Fin 1024) (cc : Fin 21), y = ix2 p cc := ⟨y 0, y 1, eq_ix2 y⟩
  rw [blk4_read]
  show k0_pay1 (accAt m c t.val t.isLt) (iblk m c 3 t) (ix2 p cc) = _
  rw [pay1_apply, accAt_apply, iblk3_apply, psum_congr _ h1 _ (by norm_num), Cert.Gauss.psum_last]
  exact (Cert.Gauss.filt_apply (U0 m c) (R0 m c) (row (ti t) p) cc).symm

/-- The result array after the run. -/
theorem final (c : Dev nD) : (dats m 0 c).arrAt 4 cfg0.N = G m c :=
  (dats m 0 c).arrAt_eq_of_cover 4 (G m c) (fun t hf => flushed_eq m c t hf) (cover4 c)

/-- The run: the result array at the filtered array of the argument arrays, the arguments unchanged. -/
theorem run : θ_run defs (onTc (τ := τ) (main (F := Ideal))) ⟨m, fun _ => 0, ρ⟩ (fun r => ∀ c : Dev nD,
      r.2.mem ((c.tc : Thread nD τ).loc main_v0) = Cert.Gauss.filt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 4).trans (final m c),
     ((h c) 2).trans (((dats m 0 c).arrAt_in 2 rfl _).trans (A_eq m c 2)),
     ((h c) 0).trans (((dats m 0 c).arrAt_in 0 rfl _).trans (A_eq m c 0))⟩) (run_main m ρ)

end Cert.KernelIdeal.Val

end
-- ==== Proof.RefIsFilt.lean ====
/-
  The reference program computes the specification.

  Read one element at a time, the reference's last stage at `(a, c)` is the sum over every row `b` of
  `exp (-1/2 · max ((s a + s b) - 2 · p a b) 0) · U (b, c)`, less `U (a, c)`, where `s a` is the reduction over the five
  coordinates of the squares of point `a` (started from the zero word, which is the extended real `0`) and `p a b` is the
  contraction of row `a` of the points with column `b` of their transpose, i.e. the inner product of points `a` and `b`.
  That is `Cert.Gauss.filt` term by term: `s = sqn`, `p = inner`, the exponential is `wgt`. The three float words are
  never evaluated except the reduction's initial zero.
-/
import proofs.«163721_j62723702391546_1_alg».proof.Proof.Spec
import proofs.«163721_j62723702391546_1_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-! ## The index maps of the layout operations, by coordinates -/

/-- The reduced axis: coordinate `k` of row `a`. -/
theorem idx_v1 (a : Fin 8192) (k : Fin 5) : idx_main_v1 (ix1 a) k = ix2 a k :=
  funext fun d => Fin.ext (by match d with | ⟨0, _⟩ => rfl | ⟨1, _⟩ => rfl)

/-- The column of squared norms broadcast along the rows reads the norm of the row's point. -/
theorem idx_v4 (a b : Fin 8192) : idx_main_v2 (idx_main_v4 (ix2 a b)) = ix1 a :=
  funext fun d => Fin.ext (by match d with | ⟨0, _⟩ => rfl)

/-- The row of squared norms broadcast along the columns reads the norm of the column's point. -/
theorem idx_v5 (a b : Fin 8192) : idx_main_v3 (idx_main_v5 (ix2 a b)) = ix1 b :=
  funext fun d => Fin.ext (by match d with | ⟨0, _⟩ => rfl)

/-- The contraction's left operand at `(a, b)`, `k`: coordinate `k` of point `a`. -/
theorem lidx_v8 (a b : Fin 8192) (k : Fin 5) : lidx_main_v8 (ix2 a b) k = ix2 a k :=
  funext fun d => Fin.ext (by match d with | ⟨0, _⟩ => rfl | ⟨1, _⟩ => rfl)

/-- The contraction's right operand, the transpose, at `(a, b)`, `k`: coordinate `k` of point `b`. -/
theorem ridx_v8 (a b : Fin 8192) (k : Fin 5) : idx_main_v7 (ridx_main_v8 (ix2 a b) k) = ix2 b k :=
  funext fun d => Fin.ext (by match d with | ⟨0, _⟩ => rfl | ⟨1, _⟩ => rfl)

/-- The last contraction's left operand at `(a, c)`, `b`: the weight of the pair `(a, b)`. -/
theorem lidx_v17 (a : Fin 8192) (c : Fin 21) (b : Fin 8192) : lidx_main_v17 (ix2 a c) b = ix2 a b :=
  funext fun d => Fin.ext (by match d with | ⟨0, _⟩ => rfl | ⟨1, _⟩ => rfl)

/-- The last contraction's right operand at `(a, c)`, `b`: channel `c` of row `b`. -/
theorem ridx_v17 (a : Fin 8192) (c : Fin 21) (b : Fin 8192) : ridx_main_v17 (ix2 a c) b = ix2 b c :=
  funext fun d => Fin.ext (by match d with | ⟨0, _⟩ => rfl | ⟨1, _⟩ => rfl)

/-! ## The stages, one element at a time -/

/-- The reduction of the squares along a point's coordinates is the point's squared norm. -/
theorem sq_apply (R : (⟨S8192x5, .f32⟩ : BufTy).Contents (Elt Ideal)) (a : Fin 8192) :
    val_main_v1 (F := Ideal) R (ix1 a) = Cert.Gauss.sqn R a := by
  rw [val_main_v1_apply, val_main_cst_apply]
  simp only [val_main_v0_apply, idx_v1, Ideal.ofBits_def, Ideal.mulf_def, Ideal.ofBits_zero_f32, zero_add]
  rfl

/-- The contraction of the points with their transpose is the inner product of two points. -/
theorem dot_apply (R : (⟨S8192x5, .f32⟩ : BufTy).Contents (Elt Ideal)) (a b : Fin 8192) :
    val_main_v8 (F := Ideal) R (ix2 a b) = Cert.Gauss.inner R a b := by
  rw [val_main_v8_apply]
  simp only [val_main_v7_apply, lidx_v8, ridx_v8]
  rfl

/-- The exponential stage at `(a, b)` is the weight of the pair of points. -/
theorem wgt_apply (R : (⟨S8192x5, .f32⟩ : BufTy).Contents (Elt Ideal)) (a b : Fin 8192) :
    val_main_v16 (F := Ideal) R (ix2 a b) = Cert.Gauss.wgt R a b := by
  rw [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v6_apply, val_main_v5_apply, val_main_v4_apply, val_main_v3_apply, val_main_v2_apply,
    idx_v4, idx_v5, sq_apply, sq_apply, dot_apply, Cert.Gauss.wgt_eq]
  simp only [Ideal.hostUnary_exp_def, Ideal.mulf_def, Ideal.maximumf_def, Ideal.subf_def, Ideal.addf_def, Ideal.ofBits_def]

/-- The reference's last stage, as a function of the two argument arrays, is the specification. -/
theorem ref_is_filt (U : (⟨S8192x21, .f32⟩ : BufTy).Contents (Elt Ideal)) (R : (⟨S8192x5, .f32⟩ : BufTy).Contents (Elt Ideal)) :
    val_main_v18 (F := Ideal) U R = Cert.Gauss.filt U R := by
  funext i
  obtain ⟨a, c, rfl⟩ : ∃ (a : Fin 8192) (c : Fin 21), i = ix2 a c := ⟨i 0, i 1, eq_ix2 i⟩
  rw [val_main_v18_apply, val_main_v17_apply]
  simp only [lidx_v17, ridx_v17, wgt_apply, Ideal.subf_def]
  rfl

/-! ## The run -/

/-- From any memory with zero counters, every weakly fair execution of the reference terminates with its result array at
    the specification of the two argument arrays' launch contents, and the argument arrays unchanged. -/
theorem run_filt (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v18)
            = Cert.Gauss.filt (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v18_eq _ _).trans (ref_is_filt _ _)), (h c).2⟩)
    (Cert.ReferenceIdeal.Value.run (F := Ideal) m ρ)

end Cert.ReferenceIdeal.RefValue

end
-- ==== Proof.lean ====
/-
  The certificate of a Gaussian filter over 8192 points with 5 features and 21 channels:
  `out (a, c) = Σ_b exp (-1/2 · max (|R a|² + |R b|² - 2 ⟨R a, R b⟩) 0) · U (b, c) - U (a, c)`.

  The kernel runs on an 8 × 8 grid of blocks of 1024 rows. At point `(i, j)` it forms the 1024 × 1024 block of weights
  between row block `i` and row block `j`, multiplies it into block `j` of `U` and adds the product to a scratch
  accumulator that it zeroed where `j = 0`; where `j = 7` it writes the accumulator less block `i` of `U` back as
  block `i` of the result. The reference forms the whole 8192 × 8192 matrix of weights and multiplies it into `U` at once.
  Over the extended reals the two agree index by index: every operation of the two texts is the same operation in the
  same order except the sum over all rows, which the kernel takes as the running sum of eight block sums — equal to the
  whole sum because the extended reals' addition is associative and commutative. No finiteness of the inputs is used.

  The three frames: the kernel's at both instances is one argument, generic in the float instance — the body run once per
  control case (first, middle, last point of the fast axis), an invariant carrying the accumulator's contents from point
  to point, and a launch in which the two input arrays, each staged through two windows, are held at the two halves of
  the full share —; the reference's is its run with the result dropped. The ideal pass rewrote nothing, so the kernel's
  idealization is its own text.
-/
import proofs.«163721_j62723702391546_1_alg».proof.Defs
import proofs.«163721_j62723702391546_1_alg».proof.Proof.Gen.Kernel
import proofs.«163721_j62723702391546_1_alg».proof.Proof.Gen.KernelIdeal
import proofs.«163721_j62723702391546_1_alg».proof.Proof.Gen.ReferenceIdeal
import proofs.«163721_j62723702391546_1_alg».proof.Proof.Gen.Pre_finite_inputs
import proofs.«163721_j62723702391546_1_alg».proof.Proof.KbLaunch
import proofs.«163721_j62723702391546_1_alg».proof.Proof.KiValue
import proofs.«163721_j62723702391546_1_alg».proof.Proof.RefIsFilt
import Idealize.ShloMosaic.Adequacy
import Idealize.ShloMosaic.Init

noncomputable section

namespace Cert.Proof

open Idealize.ShloMosaic Idealize.SL.Sem

/-- The kernel as printed runs to the end, faults nowhere and leaves both arguments unchanged. -/
theorem frame_k : Cert.frame_Kernel := fun m ρ _ => Cert.Kernel.Fr.frame m ρ

/-- The same of the kernel read at the ideal instance. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_filt m ρ)

/-- No operation was rewritten: nothing to preserve. -/
theorem preserves : Cert.preserves_Kernel_KernelIdeal := trivial

/-- Both programs end with the filtered array of the arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨?_, (h c).2⟩) (Cert.ReferenceIdeal.RefValue.run_filt m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
